-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S560x10000 : Shape := ⟨2, ![560, 10000]⟩
abbrev S560x128 : Shape := ⟨2, ![560, 128]⟩
abbrev S10080x128 : Shape := ⟨2, ![10080, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S560x10000, .f32⟩
  | .local _ .vmem, ⟨1, _⟩ => ⟨S560x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S560x128, .f32⟩
  | .local _ .vmem, ⟨8, _⟩ => ⟨S560x128, .f32⟩
  | .local _ .vmem, ⟨9, _⟩ => ⟨S10000x128, .bf16⟩
  | .local _ .vmem, ⟨10, _⟩ => ⟨S10080x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 18], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c560_i32 : BitVec 32 := 560#32
  let v26 : BitVec 32 := Scalar.muli arg1 c560_i32
  let v27 : Index := Scalar.indexCast v26
  let c0_14 : Index := 0#32
  ![v27.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S560x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S560x10000_S560x10000_0_0 : ∀ a, (![0, 0] : Fin 2 → Nat) a + S560x10000.size a ≤ S560x10000.size a
  h_S560x10000 : 0 < S560x10000.numel
  broadcasts_S1x128_S560x128 : S1x128.Broadcasts S560x128
  h_S560x128 : 0 < S560x128.numel
  shapeCasts_S560x128_S560x128 : S560x128.ShapeCasts S560x128
  inb_S10080x128_S10000x128_0_0 : ∀ a, (![0, 0] : Fin 2 → Nat) a + S10000x128.size a ≤ S10080x128.size a
  inb_S560x128_S560x128_0_0 : ∀ a, (![0, 0] : Fin 2 → Nat) a + S560x128.size a ≤ S560x128.size a
  dot_S10000x128_S128x128_S10000x128_1_0_0_1_n_n_wf : DotDims.WF S10000x128 S128x128 S10000x128 [1] [0] [0] [1] [] []
  dot_S560x10000_S10000x128_S560x128_1_0_0_1_n_n_wf : DotDims.WF S560x10000 S10000x128 S560x128 [1] [0] [0] [1] [] []
  dot_S560x128_S128x128_S560x128_1_0_0_1_n_n_wf : DotDims.WF S560x128 S128x128 S560x128 [1] [0] [0] [1] [] []
  hrank0 : 0 < grid0.rank
  k0_off1_inb : ∀ i : grid0.Coords, ∀ (k0_h2 : k0_cond2 i = 1#1), ∀ a, (k0_off1 i) a + S560x128.size a ≤ S10080x128.size a
  k0_off1_packedbf16 : ∀ i : grid0.Coords, ∀ (k0_h2 : k0_cond2 i = 1#1), (Rect.unit (s := S10080x128) (k0_off1 i) S560x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S560x10000.size a < S10000x10000.size a
  hwx0_0 : ∀ i : grid0.Coords, EltTy.bits .f32 = 32 ∨ (Rect.unit (s := S10000x10000) (fun a => cc0_transform_0 i a * S560x10000.size a) (fun a => (Pipeline.Clip.of (cc0_transform_0 i a) (S560x10000.size a) (S10000x10000.size a)).extent (S560x10000.size a)) fun a => Pipeline.Clip.inb (Pipeline.Clip.ok_of (hstart0_0 i a))).WholeWords (EltTy.packing .f32)
  hwxs0_0 : ∀ i : grid0.Coords, EltTy.bits .f32 = 32 ∨ (Rect.unit (s := S560x10000) (fun _ => 0) (fun a => (Pipeline.Clip.of (cc0_transform_0 i a) (S560x10000.size a) (S10000x10000.size a)).extent (S560x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S560x128.size a < S10000x128.size a
  hwx0_6 : ∀ i : grid0.Coords, EltTy.bits .f32 = 32 ∨ (Rect.unit (s := S10000x128) (fun a => cc0_transform_6 i a * S560x128.size a) (fun a => (Pipeline.Clip.of (cc0_transform_6 i a) (S560x128.size a) (S10000x128.size a)).extent (S560x128.size a)) fun a => Pipeline.Clip.inb (Pipeline.Clip.ok_of (hstart0_6 i a))).WholeWords (EltTy.packing .f32)
  hwxs0_6 : ∀ i : grid0.Coords, EltTy.bits .f32 = 32 ∨ (Rect.unit (s := S560x128) (fun _ => 0) (fun a => (Pipeline.Clip.of (cc0_transform_6 i a) (S560x128.size a) (S10000x128.size a)).extent (S560x128.size a)) fun a => (Nat.zero_add _).trans_le (Pipeline.Clip.extent_le (Pipeline.Clip.ok_of (hstart0_6 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S560x10000_S10000x128_S560x128_1_0_0_1_n_n : DotDims S560x10000 S10000x128 S560x128 where
  lhsContracting := [1]
  rhsContracting := [0]
  lhsNonContracting := [0]
  rhsNonContracting := [1]
  lhsBatch := []
  rhsBatch := []
  wf := dot_S560x10000_S10000x128_S560x128_1_0_0_1_n_n_wf
def dot_S560x128_S128x128_S560x128_1_0_0_1_n_n : DotDims S560x128 S128x128 S560x128 where
  lhsContracting := [1]
  rhsContracting := [0]
  lhsNonContracting := [0]
  rhsNonContracting := [1]
  lhsBatch := []
  rhsBatch := []
  wf := dot_S560x128_S128x128_S560x128_1_0_0_1_n_n_wf

abbrev win0_0 : Pipeline.Window sig grid0 :=
  Pipeline.Window.ofSpecClip (Memref.whole main_arg1) S560x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v0) S560x128.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.FrameBits.lean ====
import proofs.«112791_g36962488549418_cont_sun_m_245_12_alg».proof.Proof.Gen.Kernel.Frame
import proofs.«112791_g36962488549418_cont_sun_m_245_12_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The conditions of the body's three conditionals

The body's three conditionals test the grid coordinates (p, k) only: the first p = 0 ∧ k = 0 (the first
point: the first layer x·W1 + b1 is computed into the first scratch buffer), the second p = 0 (a block of
the second layer into the second scratch buffer), the third p = 1 (a block of the result). -/

/-- The first conditional's condition, as the body computes it from the grid coordinates. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The two scratch buffers as whole memrefs. -/
abbrev sc0 : Memref sig .tc .vmem S10000x128 .bf16 := Memref.whole cc0_scratch0
abbrev sc1 : Memref sig .tc .vmem S10080x128 .bf16 := Memref.whole cc0_scratch1

/-! ## The body on any buffers, nothing of their contents named

Every load of the body reads a buffer the body holds whole, every store writes into one, and no condition,
offset or side condition depends on a loaded value: so from each of the seven staging buffers and the two
scratch buffers at ANY contents the body runs to the end without a fault and hands each back at some
contents. That is all a frame needs. Whichever of the three conditionals are taken, the run is the same
kind of sequence of loads and stores inside buffers held whole. -/

set_option maxHeartbeats 16000000 in
theorem kernelRun (c : Dev nD) (i : grid0.Coords)
    (arg2 : Memref sig .tc .vmem S560x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S560x128 .f32) (harg8 : arg8.IsWhole) :
      ∀ (E : Set ℕ) (K : PUnit → sProp 𝕄),
        iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) sc0 fullShare d) ∗ (∃ d, owns (c : Thread nD τ) sc1 fullShare d)
            ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) sc0 fullShare d) ∗ (∃ d, owns (c : Thread nD τ) sc1 fullShare d)) -∗ K ⟨⟩))
          ⊢ wp frame (wpE (defs₀ (F := F)) Variants.none c none) E
              (cc0__gcn_kernel i arg2 harg2 arg3 harg3 arg4 harg4 arg5 harg5 arg6 harg6 arg7 harg7 arg8 harg8
                sc0 (Memref.isWhole_whole _) sc1 (Memref.isWhole_whole _)) K := by
  intro E K
  simp only [cc0__gcn_kernel_eq_skeleton]; unfold cc0__gcn_kernel_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hk⟩
  by_cases h1 : cond1 i <;> by_cases h2 : k0_cond2 i = 1#1 <;> by_cases h3 : k0_cond3 i = 1#1
  all_goals
    sl_exec (disch := first | exact h1 | exact h2 | exact h3)
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    · iexists _, _; isplitr; swap; · iexact HS1
      ipureintro; rfl

variable (m : (ℓ : Loc nD τ sig) → Buf (Elt F) ℓ) (ρ : Dev nD → PrngReg)

/-! ## The proof data: every window's contents left unnamed -/

/-- A frame reads none of the staging buffers' contents back: every window is left unnamed. -/
def forgets0 : Fin 7 → Bool := fun _ => true

/-- The proof data of the one pipeline on a core: the arrays as the region finds them; what the body leaves in
    the staging buffers not named; the invariant between points the two scratch buffers at some contents and the
    generator register at some state; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The invariant between points, with the two scratch buffers as whole memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Each window's current staging memref at a point, as the pipeline passes it to the body, and its wholeness. -/
abbrev ms0_0 (t : Fin cfg0.N) : Memref sig .tc .vmem S560x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S560x128 .f32 := win0_6.stage (cfg0.slots t 6)
abbrev hs0_6 (t : Fin cfg0.N) : (ms0_6 t).IsWhole := hstage0_6 ((cfg0.slots t 6).cast nbuf0_6)

/-! ## The body obligation, at a generic point -/

/-- What the body is called with at a point: the invariant, nothing owed, each window's current buffer at some contents; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d) ∗ (∃ d, owns (c : Thread nD τ) (ms0_1 t) fullShare d)
    ∗ (∃ d, owns (c : Thread nD τ) (ms0_2 t) fullShare d) ∗ (∃ d, owns (c : Thread nD τ) (ms0_3 t) fullShare d)
    ∗ (∃ d, owns (c : Thread nD τ) (ms0_4 t) fullShare d) ∗ (∃ d, owns (c : Thread nD τ) (ms0_5 t) fullShare d)
    ∗ (∃ d, owns (c : Thread nD τ) (ms0_6 t) fullShare d))

/-- and what it returns: the same, at the next point. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d) ∗ (∃ d, owns (c : Thread nD τ) (ms0_1 t) fullShare d)
    ∗ (∃ d, owns (c : Thread nD τ) (ms0_2 t) fullShare d) ∗ (∃ d, owns (c : Thread nD τ) (ms0_3 t) fullShare d)
    ∗ (∃ d, owns (c : Thread nD τ) (ms0_4 t) fullShare d) ∗ (∃ d, owns (c : Thread nD τ) (ms0_5 t) fullShare d)
    ∗ (∃ d, owns (c : Thread nD τ) (ms0_6 t) fullShare d))

set_option maxHeartbeats 4000000 in
/-- The body at any point: the invariant hands it the two scratch buffers at some contents, the windows their
    current buffers at some contents; it runs (kernelRun) and hands all of them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1⟩, Hg⟩, Ho, H0, H1, H2, H3, H4, H5, H6⟩
  iapply (kernelRun c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point, every window's contents unnamed. -/
theorem body_obligation (c : Dev nD) : BodyObligation (dats (F := F) m 0 c) (defs₀ (F := F)) Variants.none () Set.univ forgets0 := fun t => by
  rw [bigSep_W0, bigSep_W0]
  exact sound_body m c t

/-! ## The run and the frame -/

set_option backward.isDefEq.respectTransparency.types false in
/-- From any memory with zero counters every weakly fair execution of the program terminates, and every final
    state has every input array of the pipeline unchanged and every other unscoped buffer at its region-entry
    contents; nothing is stated of the result array. -/
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame: the program runs to the end without a fault and its six argument arrays end as they were.
    The four arrays the pipeline stages are read off the run's post as inputs of it; the two bias vectors,
    which the pipeline sees only through their reshaped copies, as buffers it never touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (Eq.mp (congrFun (((dats m 0 c).toRForget forgets0).ArrAt_in 1 rfl _) _) ((h c).1 1)).trans ((A_eq m c 1).trans (V_main_arg0 m c)),
      (Eq.mp (congrFun (((dats m 0 c).toRForget forgets0).ArrAt_in 0 rfl _) _) ((h c).1 0)).trans ((A_eq m c 0).trans (V_main_arg1 m c)),
      (Eq.mp (congrFun (((dats m 0 c).toRForget forgets0).ArrAt_in 2 rfl _) _) ((h c).1 2)).trans ((A_eq m c 2).trans (V_main_arg2 m c)),
      ((h c).2 main_arg3 (Pipeline.mem_restRefs_of main_arg3 (by decide) (by decide))).trans (V_main_arg3 m c),
      (Eq.mp (congrFun (((dats m 0 c).toRForget forgets0).ArrAt_in 4 rfl _) _) ((h c).1 4)).trans ((A_eq m c 4).trans (V_main_arg4 m c)),
      ((h c).2 main_arg5 (Pipeline.mem_restRefs_of main_arg5 (by decide) (by decide))).trans (V_main_arg5 m c)⟩) (run_main m ρ)

end Cert.Kernel.Body

end
-- ==== Proof.FrameIdeal.lean ====
import proofs.«112791_g36962488549418_cont_sun_m_245_12_alg».proof.Proof.Gen.KernelIdeal.Frame
import proofs.«112791_g36962488549418_cont_sun_m_245_12_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The conditions of the body's three conditionals

The body's three conditionals test the grid coordinates (p, k) only: the first p = 0 ∧ k = 0 (the first
point: the first layer x·W1 + b1 is computed into the first scratch buffer), the second p = 0 (a block of
the second layer into the second scratch buffer), the third p = 1 (a block of the result). -/

/-- The first conditional's condition, as the body computes it from the grid coordinates. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The two scratch buffers as whole memrefs. -/
abbrev sc0 : Memref sig .tc .vmem S10000x128 .bf16 := Memref.whole cc0_scratch0
abbrev sc1 : Memref sig .tc .vmem S10080x128 .bf16 := Memref.whole cc0_scratch1

/-! ## The body on any buffers, nothing of their contents named

Every load of the body reads a buffer the body holds whole, every store writes into one, and no condition,
offset or side condition depends on a loaded value: so from each of the seven staging buffers and the two
scratch buffers at ANY contents the body runs to the end without a fault and hands each back at some
contents. That is all a frame needs. Whichever of the three conditionals are taken, the run is the same
kind of sequence of loads and stores inside buffers held whole. -/

set_option maxHeartbeats 16000000 in
theorem kernelRun (c : Dev nD) (i : grid0.Coords)
    (arg2 : Memref sig .tc .vmem S560x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S560x128 .f32) (harg8 : arg8.IsWhole) :
      ∀ (E : Set ℕ) (K : PUnit → sProp 𝕄),
        iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) sc0 fullShare d) ∗ (∃ d, owns (c : Thread nD τ) sc1 fullShare d)
            ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) sc0 fullShare d) ∗ (∃ d, owns (c : Thread nD τ) sc1 fullShare d)) -∗ K ⟨⟩))
          ⊢ wp frame (wpE (defs₀ (F := F)) Variants.none c none) E
              (cc0__gcn_kernel i arg2 harg2 arg3 harg3 arg4 harg4 arg5 harg5 arg6 harg6 arg7 harg7 arg8 harg8
                sc0 (Memref.isWhole_whole _) sc1 (Memref.isWhole_whole _)) K := by
  intro E K
  simp only [cc0__gcn_kernel_eq_skeleton]; unfold cc0__gcn_kernel_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hk⟩
  by_cases h1 : cond1 i <;> by_cases h2 : k0_cond2 i = 1#1 <;> by_cases h3 : k0_cond3 i = 1#1
  all_goals
    sl_exec (disch := first | exact h1 | exact h2 | exact h3)
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    · iexists _, _; isplitr; swap; · iexact HS1
      ipureintro; rfl

variable (m : (ℓ : Loc nD τ sig) → Buf (Elt F) ℓ) (ρ : Dev nD → PrngReg)

/-! ## The proof data: every window's contents left unnamed -/

/-- A frame reads none of the staging buffers' contents back: every window is left unnamed. -/
def forgets0 : Fin 7 → Bool := fun _ => true

/-- The proof data of the one pipeline on a core: the arrays as the region finds them; what the body leaves in
    the staging buffers not named; the invariant between points the two scratch buffers at some contents and the
    generator register at some state; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The invariant between points, with the two scratch buffers as whole memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Each window's current staging memref at a point, as the pipeline passes it to the body, and its wholeness. -/
abbrev ms0_0 (t : Fin cfg0.N) : Memref sig .tc .vmem S560x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S560x128 .f32 := win0_6.stage (cfg0.slots t 6)
abbrev hs0_6 (t : Fin cfg0.N) : (ms0_6 t).IsWhole := hstage0_6 ((cfg0.slots t 6).cast nbuf0_6)

/-! ## The body obligation, at a generic point -/

/-- What the body is called with at a point: the invariant, nothing owed, each window's current buffer at some contents; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d) ∗ (∃ d, owns (c : Thread nD τ) (ms0_1 t) fullShare d)
    ∗ (∃ d, owns (c : Thread nD τ) (ms0_2 t) fullShare d) ∗ (∃ d, owns (c : Thread nD τ) (ms0_3 t) fullShare d)
    ∗ (∃ d, owns (c : Thread nD τ) (ms0_4 t) fullShare d) ∗ (∃ d, owns (c : Thread nD τ) (ms0_5 t) fullShare d)
    ∗ (∃ d, owns (c : Thread nD τ) (ms0_6 t) fullShare d))

/-- and what it returns: the same, at the next point. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d) ∗ (∃ d, owns (c : Thread nD τ) (ms0_1 t) fullShare d)
    ∗ (∃ d, owns (c : Thread nD τ) (ms0_2 t) fullShare d) ∗ (∃ d, owns (c : Thread nD τ) (ms0_3 t) fullShare d)
    ∗ (∃ d, owns (c : Thread nD τ) (ms0_4 t) fullShare d) ∗ (∃ d, owns (c : Thread nD τ) (ms0_5 t) fullShare d)
    ∗ (∃ d, owns (c : Thread nD τ) (ms0_6 t) fullShare d))

set_option maxHeartbeats 4000000 in
/-- The body at any point: the invariant hands it the two scratch buffers at some contents, the windows their
    current buffers at some contents; it runs (kernelRun) and hands all of them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1⟩, Hg⟩, Ho, H0, H1, H2, H3, H4, H5, H6⟩
  iapply (kernelRun c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point, every window's contents unnamed. -/
theorem body_obligation (c : Dev nD) : BodyObligation (dats (F := F) m 0 c) (defs₀ (F := F)) Variants.none () Set.univ forgets0 := fun t => by
  rw [bigSep_W0, bigSep_W0]
  exact sound_body m c t

/-! ## The run and the frame -/

set_option backward.isDefEq.respectTransparency.types false in
/-- From any memory with zero counters every weakly fair execution of the program terminates, and every final
    state has every input array of the pipeline unchanged and every other unscoped buffer at its region-entry
    contents; nothing is stated of the result array. -/
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame: the program runs to the end without a fault and its six argument arrays end as they were.
    The four arrays the pipeline stages are read off the run's post as inputs of it; the two bias vectors,
    which the pipeline sees only through their reshaped copies, as buffers it never touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (Eq.mp (congrFun (((dats m 0 c).toRForget forgets0).ArrAt_in 1 rfl _) _) ((h c).1 1)).trans ((A_eq m c 1).trans (V_main_arg0 m c)),
      (Eq.mp (congrFun (((dats m 0 c).toRForget forgets0).ArrAt_in 0 rfl _) _) ((h c).1 0)).trans ((A_eq m c 0).trans (V_main_arg1 m c)),
      (Eq.mp (congrFun (((dats m 0 c).toRForget forgets0).ArrAt_in 2 rfl _) _) ((h c).1 2)).trans ((A_eq m c 2).trans (V_main_arg2 m c)),
      ((h c).2 main_arg3 (Pipeline.mem_restRefs_of main_arg3 (by decide) (by decide))).trans (V_main_arg3 m c),
      (Eq.mp (congrFun (((dats m 0 c).toRForget forgets0).ArrAt_in 4 rfl _) _) ((h c).1 4)).trans ((A_eq m c 4).trans (V_main_arg4 m c)),
      ((h c).2 main_arg5 (Pipeline.mem_restRefs_of main_arg5 (by decide) (by decide))).trans (V_main_arg5 m c)⟩) (run_main m ρ)

end Cert.KernelIdeal.Body

end
-- ==== Proof.Claims.lean ====
/-
  The frame conjuncts and the idealization conjunct of the certificate of a two-layer dense graph convolution
  out = A·(max(A·(x·W1 + b1), 0)·W2 + b2), computed by one pipelined kernel over a grid of two phases by eighteen
  row blocks of A, against the same formula written with whole-array products.

  A frame says only that the program runs to the end without a fault and leaves its arguments as they were; no
  value the kernel computes enters it. For the kernel (word-level and idealized alike) it is the run of the
  pipeline with every staging buffer and both scratch buffers held at contents nothing names; for the reference,
  which launches no kernel, it is its run as a sequence of whole-array operations with the result dropped. The
  idealization rewrote no operation of the kernel, so that conjunct states nothing.
-/
import proofs.«112791_g36962488549418_cont_sun_m_245_12_alg».proof.Defs
import proofs.«112791_g36962488549418_cont_sun_m_245_12_alg».proof.Proof.FrameBits
import proofs.«112791_g36962488549418_cont_sun_m_245_12_alg».proof.Proof.FrameIdeal
import proofs.«112791_g36962488549418_cont_sun_m_245_12_alg».proof.Proof.Gen.ReferenceIdeal
import proofs.«112791_g36962488549418_cont_sun_m_245_12_alg».proof.Proof.Gen.ReferenceIdeal.Run
import proofs.«112791_g36962488549418_cont_sun_m_245_12_alg».proof.Proof.Gen.Pre_finite_inputs

noncomputable section

namespace Cert.Gcn.Claims

open Idealize.ShloMosaic Idealize.SL.Sem

/-- The word-level kernel runs and leaves its six arguments unchanged. -/
theorem frame_kernel : Cert.frame_Kernel := fun m ρ _ => Cert.Kernel.Body.frame (F := Bits) m ρ

/-- So does the idealized kernel. -/
theorem frame_kernelIdeal : Cert.frame_KernelIdeal := fun m ρ _ => Cert.KernelIdeal.Body.frame (F := Ideal) m ρ

/-- The reference runs as a sequence of whole-array operations; its arguments are among the buffers none of
    them writes. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the word-level kernel's own text read over the extended reals: nothing was rewritten. -/
theorem preserves : Cert.preserves_Kernel_KernelIdeal := trivial

end Cert.Gcn.Claims

end
-- ==== Proof.ValRun.lean ====
/-
  The kernel body run at a grid point with the contents of its buffers NAMED, one statement per combination of
  conditionals the grid meets: the first point (first layer into the first scratch buffer, then the first block of the
  second layer), the other points of the first phase (a block of the second layer into its 560 rows of the second
  scratch buffer), and the second phase (a block of the result). Each says which buffers the body reads, and what the
  buffers it writes hold afterwards as the body's payload of what it read.
-/
import proofs.«112791_g36962488549418_cont_sun_m_245_12_alg».proof.Proof.FrameIdeal
import Idealize.ShloMosaic.Lib.Pipeline.Value
import Idealize.ShloMosaic.Lib.WritesUnit
import Idealize.ShloMosaic.Lib.ValueIdx

set_option maxRecDepth 16384

noncomputable section

namespace Cert.KernelIdeal.ValRun

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a rank-two buffer, as the function the library's whole-rectangle lemmas ask for. -/
theorem hz2 : (![0, 0] : Fin 2 → Nat) = fun _ => 0 := funext fun a => by fin_cases a <;> rfl

/-- The first 10000 rows of the second scratch buffer (10080 rows: eighteen blocks of 560), as the third
    conditional loads them. -/
abbrev topRows (y : Vec F S10080x128 .bf16) : Vec F S10000x128 .bf16 :=
  View.ld y (Rect.unit (s := S10080x128) ![0, 0] S10000x128.size inb_S10080x128_S10000x128_0_0)

/-- A load through the whole rectangle at zero offsets of a buffer whose contents read X is X. -/
theorem readAt_whole {sp : Space} {S : Shape} {e : EltTy} (v : View sig .tc sp S e) (f : v.ty.Contents (Elt F))
    (X : S.Idx → Elt F e) (hf : View.read (Elt F) v f = X) {off : Fin S.rank → Nat} (h : off = fun _ => 0)
    (inb : ∀ a, off a + S.size a ≤ S.size a) :
    View.readAt (Elt F) v (Rect.unit off S.size inb).toLoadRect f = X := by
  rw [View.readAt_eq_ld, hf]; exact View.ld_unit_zero h inb X

/-! ## The second conditional (the first phase): a block of the second layer into its rows of the scratch

Rows 560·k … 560·k + 559 of the second scratch buffer receive the block's payload; every other row keeps
what it held. -/

/-- What the buffer y' holds after rows 560·k … 560·k + 559 of y were overwritten by the block w. -/
def SliceOf (i : grid0.Coords) (y : Vec F S10080x128 .bf16) (w : FVec F S560x128 .bf16) (y' : Vec F S10080x128 .bf16) : Prop :=
  (∀ (j : S10080x128.Idx) (x : S560x128.Idx), (j (0 : Fin 2)).val = 560 * (i 1).val + (x (0 : Fin 2)).val →
      (j (1 : Fin 2)).val = (x (1 : Fin 2)).val → y' j = w x)
  ∧ (∀ j : S10080x128.Idx, ((j (0 : Fin 2)).val < 560 * (i 1).val ∨ 560 * (i 1).val + 560 ≤ (j (0 : Fin 2)).val) → y' j = y j)

/-- One store of whole rows through the block's rectangle leaves exactly that. -/
theorem sliceOf_writes (i : grid0.Coords) (h2 : k0_cond2 i = 1#1) (y : Vec F S10080x128 .bf16) (f : sc1.view.ty.Contents (Elt F))
    (hf : View.read (Elt F) sc1.view f = y) (w : FVec F S560x128 .bf16) :
    SliceOf i y w (View.read (Elt F) sc1.view (sc1.view.writes (Elt F) f
      [⟨Rect.unit (s := S10080x128) (k0_off1 i) S560x128.size (k0_off1_inb i h2), w⟩])) := by
  refine ⟨fun j x hx0 hx1 => ?_, fun j hj => ?_⟩
  · exact View.read_writes_cons_rows_of_mem sc1.view f (k0_off1_inb i h2) w [] j x (k0_off1_eq i) hx0 hx1
  · rw [View.read_writes_cons_rows_of_not_mem sc1.view f (k0_off1_inb i h2) w [] j (k0_off1_eq i) rfl hj, View.writes_nil]
    exact congrFun hf j

set_option maxHeartbeats 8000000 in
theorem runV_B (c : Dev nD) (i : grid0.Coords)
    (arg2 : Memref sig .tc .vmem S560x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S560x128 .f32) (harg8 : arg8.IsWhole)
    (h1 : ¬cond1 i) (h2 : k0_cond2 i = 1#1) (h3 : ¬k0_cond3 i = 1#1)
    (a : Vec F S560x10000 .f32) (w2 : Vec F S128x128 .f32) (b2r : Vec F S1x128 .f32)
    (y1 : Vec F S10000x128 .bf16) (y : Vec F S10080x128 .bf16) :
      ∀ (E : Set ℕ) (K : PUnit → sProp 𝕄),
        iprop(owns (c : Thread nD τ) arg2 fullShare a ∗ owns (c : Thread nD τ) arg6 fullShare w2 ∗ owns (c : Thread nD τ) arg7 fullShare b2r
            ∗ owns (c : Thread nD τ) sc0 fullShare y1 ∗ owns (c : Thread nD τ) sc1 fullShare y
            ∗ (iprop(owns (c : Thread nD τ) arg2 fullShare a ∗ owns (c : Thread nD τ) arg6 fullShare w2 ∗ owns (c : Thread nD τ) arg7 fullShare b2r
                ∗ owns (c : Thread nD τ) sc0 fullShare y1
                ∗ (∃ y', ⌜SliceOf i y (k0_pay2 a y1 w2 b2r) y'⌝ ∗ owns (c : Thread nD τ) sc1 fullShare y')) -∗ K ⟨⟩))
          ⊢ wp frame (wpE (defs₀ (F := F)) Variants.none c none) E
              (cc0__gcn_kernel i arg2 harg2 arg3 harg3 arg4 harg4 arg5 harg5 arg6 harg6 arg7 harg7 arg8 harg8
                sc0 (Memref.isWhole_whole _) sc1 (Memref.isWhole_whole _)) K := by
  intro E K
  simp only [cc0__gcn_kernel_eq_skeleton]; unfold cc0__gcn_kernel_skel
  unfold owns
  iintro ⟨⟨%f2, %hf2, H2⟩, ⟨%f6, %hf6, H6⟩, ⟨%f7, %hf7, H7⟩, ⟨%fs0, %hfs0, HS0⟩, ⟨%fs1, %hfs1, HS1⟩, Hk⟩
  sl_exec (disch := first | exact h1 | exact h2 | exact h3)
  sl_step
  iapply Hk
  isplitl [H2]
  · iexists _; isplitr; swap; · iexact H2
    ipureintro; exact hf2
  isplitl [H6]
  · iexists _; isplitr; swap; · iexact H6
    ipureintro; exact hf6
  isplitl [H7]
  · iexists _; isplitr; swap; · iexact H7
    ipureintro; exact hf7
  isplitl [HS0]
  · iexists _; isplitr; swap; · iexact HS0
    ipureintro; exact hfs0
  · iexists _; isplitr; swap
    · iexists _; isplitr; swap; · iexact HS1
      ipureintro; rfl
    ipureintro
    rw [readAt_whole arg2.view f2 a hf2 hz2 inb_S560x10000_S560x10000_0_0,
      readAt_whole sc0.view fs0 y1 hfs0 hz2 inb_S10000x128_S10000x128_0_0,
      readAt_whole arg6.view f6 w2 hf6 hz2 inb_S128x128_S128x128_0_0,
      readAt_whole arg7.view f7 b2r hf7 hz2 inb_S1x128_S1x128_0_0]
    exact sliceOf_writes (F := F) i h2 y fs1 hfs1 (k0_pay2 a y1 w2 b2r)

/-! ## The first point: the first layer, then the first block of the second -/

set_option maxHeartbeats 8000000 in
theorem runV_A (c : Dev nD) (i : grid0.Coords)
    (arg2 : Memref sig .tc .vmem S560x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S560x128 .f32) (harg8 : arg8.IsWhole)
    (h1 : cond1 i) (h2 : k0_cond2 i = 1#1) (h3 : ¬k0_cond3 i = 1#1)
    (a : Vec F S560x10000 .f32) (x : Vec F S10000x128 .f32) (w1 : Vec F S128x128 .f32) (b1r : Vec F S1x128 .f32)
    (w2 : Vec F S128x128 .f32) (b2r : Vec F S1x128 .f32) (y : Vec F S10080x128 .bf16) :
      ∀ (E : Set ℕ) (K : PUnit → sProp 𝕄),
        iprop(owns (c : Thread nD τ) arg2 fullShare a ∗ owns (c : Thread nD τ) arg3 fullShare x ∗ owns (c : Thread nD τ) arg4 fullShare w1
            ∗ owns (c : Thread nD τ) arg5 fullShare b1r ∗ owns (c : Thread nD τ) arg6 fullShare w2 ∗ owns (c : Thread nD τ) arg7 fullShare b2r
            ∗ (∃ d, owns (c : Thread nD τ) sc0 fullShare d) ∗ owns (c : Thread nD τ) sc1 fullShare y
            ∗ (iprop(owns (c : Thread nD τ) arg2 fullShare a ∗ owns (c : Thread nD τ) arg3 fullShare x ∗ owns (c : Thread nD τ) arg4 fullShare w1
                ∗ owns (c : Thread nD τ) arg5 fullShare b1r ∗ owns (c : Thread nD τ) arg6 fullShare w2 ∗ owns (c : Thread nD τ) arg7 fullShare b2r
                ∗ owns (c : Thread nD τ) sc0 fullShare (k0_pay1 x w1 b1r)
                ∗ (∃ y', ⌜SliceOf i y (k0_pay2 a (k0_pay1 x w1 b1r) w2 b2r) y'⌝ ∗ owns (c : Thread nD τ) sc1 fullShare y')) -∗ K ⟨⟩))
          ⊢ wp frame (wpE (defs₀ (F := F)) Variants.none c none) E
              (cc0__gcn_kernel i arg2 harg2 arg3 harg3 arg4 harg4 arg5 harg5 arg6 harg6 arg7 harg7 arg8 harg8
                sc0 (Memref.isWhole_whole _) sc1 (Memref.isWhole_whole _)) K := by
  intro E K
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d0, %fs0, -, HS0⟩, ⟨%fs1, %hfs1, HS1⟩, Hk⟩
  sl_exec (disch := first | exact h1 | exact h2 | exact h3)
  sl_step
  have e13 : runV_A.sl.v13 c arg3 arg4 arg5 f3 f4 f5 = k0_pay1 x w1 b1r := by
    unfold runV_A.sl.v13 runV_A.sl.HS0_1
    rw [View.readCov_unit_zero sc0.view hz2 inb_S10000x128_S10000x128_0_0,
      readAt_whole arg3.view f3 x hf3 hz2 inb_S10000x128_S10000x128_0_0,
      readAt_whole arg4.view f4 w1 hf4 hz2 inb_S128x128_S128x128_0_0,
      readAt_whole arg5.view f5 b1r hf5 hz2 inb_S1x128_S1x128_0_0]
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [HS0]
  · iexists _; isplitr; swap; · iexact HS0
    ipureintro
    unfold runV_A.sl.HS0_1
    rw [View.read_writes_eq_canon _ _ _ (fun y => ⟨_, List.mem_singleton_self _, View.mem_set_unit_zero hz2 inb_S10000x128_S10000x128_0_0 y⟩),
      View.canon_unit_zero hz2,
      readAt_whole arg3.view f3 x hf3 hz2 inb_S10000x128_S10000x128_0_0,
      readAt_whole arg4.view f4 w1 hf4 hz2 inb_S128x128_S128x128_0_0,
      readAt_whole arg5.view f5 b1r hf5 hz2 inb_S1x128_S1x128_0_0]
  · iexists _; isplitr; swap
    · iexists _; isplitr; swap; · iexact HS1
      ipureintro; rfl
    ipureintro
    rw [readAt_whole arg2.view f2 a hf2 hz2 inb_S560x10000_S560x10000_0_0, e13,
      readAt_whole arg6.view f6 w2 hf6 hz2 inb_S128x128_S128x128_0_0,
      readAt_whole arg7.view f7 b2r hf7 hz2 inb_S1x128_S1x128_0_0]
    exact sliceOf_writes (F := F) i h2 y fs1 hfs1 (k0_pay2 a (k0_pay1 x w1 b1r) w2 b2r)

/-! ## The third conditional alone (the second phase): a block of the result

The block of A in the first staging buffer times the first 10000 rows of the second scratch buffer, stored
whole into the result's staging buffer; nothing else is touched. -/

set_option maxHeartbeats 4000000 in
theorem runV_C (c : Dev nD) (i : grid0.Coords)
    (arg2 : Memref sig .tc .vmem S560x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S560x128 .f32) (harg8 : arg8.IsWhole)
    (h1 : ¬cond1 i) (h2 : ¬k0_cond2 i = 1#1) (h3 : k0_cond3 i = 1#1)
    (a : Vec F S560x10000 .f32) (y : Vec F S10080x128 .bf16) :
      ∀ (E : Set ℕ) (K : PUnit → sProp 𝕄),
        iprop(owns (c : Thread nD τ) arg2 fullShare a ∗ (∃ d, owns (c : Thread nD τ) arg8 fullShare d)
            ∗ owns (c : Thread nD τ) sc1 fullShare y
            ∗ (iprop(owns (c : Thread nD τ) arg2 fullShare a ∗ owns (c : Thread nD τ) arg8 fullShare (k0_pay3 a (topRows y))
                ∗ owns (c : Thread nD τ) sc1 fullShare y) -∗ K ⟨⟩))
          ⊢ wp frame (wpE (defs₀ (F := F)) Variants.none c none) E
              (cc0__gcn_kernel i arg2 harg2 arg3 harg3 arg4 harg4 arg5 harg5 arg6 harg6 arg7 harg7 arg8 harg8
                sc0 (Memref.isWhole_whole _) sc1 (Memref.isWhole_whole _)) K := by
  intro E K
  simp only [cc0__gcn_kernel_eq_skeleton]; unfold cc0__gcn_kernel_skel
  unfold owns
  iintro ⟨⟨%f2, %hf2, H2⟩, ⟨%d8, %f8, -, H8⟩, ⟨%fs, %hfs, HS⟩, Hk⟩
  obtain rfl := harg2.eq_unread hf2
  obtain rfl := (Memref.isWhole_whole cc0_scratch1).eq_unread hfs
  sl_exec (disch := first | exact h1 | exact h2 | exact h3)
  sl_step
  iapply Hk
  isplitl [H2]
  · iexists _; isplitr; swap; · iexact H2
    ipureintro; exact hf2
  isplitl [H8]
  · iexists _; isplitr; swap; · iexact H8
    ipureintro
    rw [View.read_writes_eq_canon _ _ _ (fun y => ⟨_, List.mem_singleton_self _, View.mem_set_unit_zero hz2 inb_S560x128_S560x128_0_0 y⟩),
      View.canon_unit_zero hz2]
    simp only [View.readAt_eq_ld, hf2, hfs, View.ld_unit_zero (S := S560x10000) hz2]
  · iexists _; isplitr; swap; · iexact HS
    ipureintro; exact hfs

end Cert.KernelIdeal.ValRun

end
-- ==== Proof.Spec.lean ====
/-
  The specification: a two-layer dense graph convolution over the extended reals, index by index.
  With node features `x : [10000,128]`, a dense adjacency matrix `a : [10000,10000]`, weights
  `w1, w2 : [128,128]` and bias rows `b1, b2 : [128]`, the result is

      G = a · (max (a · (x · w1 + b1)) 0 · w2 + b2)        : [10000,128]

  where `·` is the matrix product (a finite sum of products of extended reals), `+ b` adds the bias
  row to every row, and `max _ 0` is taken entry by entry. Every stage is stated at an index, the
  index's coordinates read off by `i 0`, `i 1` and operand indices built from coordinates by
  `ix1` / `ix2`, so that at `ix2 p q` each stage reads by `rfl` (the `_ix2` lemmas below).
  No program is imported: shapes are written literally.
-/
import Idealize.ShloMosaic.PureOps.Ideal
import Idealize.ShloMosaic.Lib.ValueIdx

noncomputable section

namespace Cert.Gcn.Spec

open Idealize.ShloMosaic Idealize.ShloMosaic.ValueIdx
open scoped BigOperators

/-- First dense layer: entry `(r, c)` is `∑ k, x[r,k] * w1[k,c] + b1[c]`. -/
def y1 (x : (⟨2, ![10000, 128]⟩ : Shape).Idx → EReal) (w1 : (⟨2, ![128, 128]⟩ : Shape).Idx → EReal)
    (b1 : (⟨1, ![128]⟩ : Shape).Idx → EReal) : (⟨2, ![10000, 128]⟩ : Shape).Idx → EReal :=
  fun i => (∑ k : Fin 128, x (ix2 (i 0) k) * w1 (ix2 k (i 1))) + b1 (ix1 (i 1))

/-- Aggregation over the graph followed by the rectifier: entry `(r, c)` is `max (∑ k, a[r,k] * y[k,c]) 0`. -/
def hid (a : (⟨2, ![10000, 10000]⟩ : Shape).Idx → EReal) (y : (⟨2, ![10000, 128]⟩ : Shape).Idx → EReal) :
    (⟨2, ![10000, 128]⟩ : Shape).Idx → EReal :=
  fun i => max (∑ k : Fin 10000, a (ix2 (i 0) k) * y (ix2 k (i 1))) 0

/-- Second dense layer: entry `(r, c)` is `∑ k, h[r,k] * w2[k,c] + b2[c]`. -/
def y2 (h : (⟨2, ![10000, 128]⟩ : Shape).Idx → EReal) (w2 : (⟨2, ![128, 128]⟩ : Shape).Idx → EReal)
    (b2 : (⟨1, ![128]⟩ : Shape).Idx → EReal) : (⟨2, ![10000, 128]⟩ : Shape).Idx → EReal :=
  fun i => (∑ k : Fin 128, h (ix2 (i 0) k) * w2 (ix2 k (i 1))) + b2 (ix1 (i 1))

/-- Final aggregation over the graph: entry `(r, c)` is `∑ k, a[r,k] * y[k,c]`. -/
def out (a : (⟨2, ![10000, 10000]⟩ : Shape).Idx → EReal) (y : (⟨2, ![10000, 128]⟩ : Shape).Idx → EReal) :
    (⟨2, ![10000, 128]⟩ : Shape).Idx → EReal :=
  fun i => ∑ k : Fin 10000, a (ix2 (i 0) k) * y (ix2 k (i 1))

/-- The whole two-layer graph convolution `a · (max (a · (x · w1 + b1)) 0 · w2 + b2)`. -/
def G (x : (⟨2, ![10000, 128]⟩ : Shape).Idx → EReal) (a : (⟨2, ![10000, 10000]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) :
    (⟨2, ![10000, 128]⟩ : Shape).Idx → EReal :=
  out a (y2 (hid a (y1 x w1 b1)) w2 b2)

/-! ## Each stage at an index given by its coordinates -/

theorem y1_ix2 (x : (⟨2, ![10000, 128]⟩ : Shape).Idx → EReal) (w1 : (⟨2, ![128, 128]⟩ : Shape).Idx → EReal)
    (b1 : (⟨1, ![128]⟩ : Shape).Idx → EReal) (p : Fin 10000) (q : Fin 128) :
    y1 x w1 b1 (ix2 p q) = (∑ k : Fin 128, x (ix2 p k) * w1 (ix2 k q)) + b1 (ix1 q) := rfl

theorem hid_ix2 (a : (⟨2, ![10000, 10000]⟩ : Shape).Idx → EReal) (y : (⟨2, ![10000, 128]⟩ : Shape).Idx → EReal)
    (p : Fin 10000) (q : Fin 128) :
    hid a y (ix2 p q) = max (∑ k : Fin 10000, a (ix2 p k) * y (ix2 k q)) 0 := rfl

theorem y2_ix2 (h : (⟨2, ![10000, 128]⟩ : Shape).Idx → EReal) (w2 : (⟨2, ![128, 128]⟩ : Shape).Idx → EReal)
    (b2 : (⟨1, ![128]⟩ : Shape).Idx → EReal) (p : Fin 10000) (q : Fin 128) :
    y2 h w2 b2 (ix2 p q) = (∑ k : Fin 128, h (ix2 p k) * w2 (ix2 k q)) + b2 (ix1 q) := rfl

theorem out_ix2 (a : (⟨2, ![10000, 10000]⟩ : Shape).Idx → EReal) (y : (⟨2, ![10000, 128]⟩ : Shape).Idx → EReal)
    (p : Fin 10000) (q : Fin 128) :
    out a y (ix2 p q) = ∑ k : Fin 10000, a (ix2 p k) * y (ix2 k q) := rfl

theorem G_ix2 (x : (⟨2, ![10000, 128]⟩ : Shape).Idx → EReal) (a : (⟨2, ![10000, 10000]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (p : Fin 10000) (q : Fin 128) :
    G x a w1 b1 w2 b2 (ix2 p q)
      = ∑ k : Fin 10000, a (ix2 p k) * y2 (hid a (y1 x w1 b1)) w2 b2 (ix2 k q) := rfl

end Cert.Gcn.Spec

end
-- ==== Proof.PayAt.lean ====
/-
  The kernel's three stored values read at one index, at the ideal (extended-real) values.

  The kernel computes a two-layer dense graph convolution. Its three stored values are
    * first layer:     y1 = x · W1 + b1                       (all 10000 rows at once),
    * second layer:    y2 = max (A_blk · y1, 0) · W2 + b2     (one block of 560 rows of A),
    * output:          out = A_blk · y2                       (one block of 560 rows of A).
  At the ideal values a change of float format is the identity, a matrix product into a zero
  accumulator is the plain finite sum of products over the contracted axis, a row vector
  broadcast along the rows reads its one row, and the elementwise maximum and sum are those of
  the extended reals. So each stored value, read at row `p` and column `q`, is the textbook
  expression in the entries of its operands; no algebraic law is used, only unfolding.
-/
import proofs.«112791_g36962488549418_cont_sun_m_245_12_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.PayAt

open Cert.KernelIdeal Cert.KernelIdeal.Gen Idealize.ShloMosaic
open Idealize.ShloMosaic.ValueIdx (ix2 eq_ix2 contrEquiv1 contrEquiv1_symm_val)
open scoped BigOperators

/-! ## The three matrix products at an index

Each of the kernel's three contractions has one contracted axis: the second axis of the left
operand against the first axis of the right operand. Read at output index `(p, q)`, the product
into the zero accumulator is `∑ k, l (p, k) * r (k, q)`: the contraction's index set is
identified with `Fin n` and the operand indices at `(p, q)` and `k` are `(p, k)` and `(k, q)`. -/

/-- On the block product `[560, 10000] × [10000, 128]` the left operand's row and the right operand's
    column are the output's. -/
theorem blk_lhs0 (i : S560x128.Idx) (c : dot_S560x10000_S10000x128_S560x128_1_0_0_1_n_n.contr.Idx) :
    (dot_S560x10000_S10000x128_S560x128_1_0_0_1_n_n.lhsIdx i c 0).val = (i 0).val := by
  unfold DotDims.lhsIdx
  rw [dif_neg (show ¬(0 : Fin S560x10000.rank) ∈ dot_S560x10000_S10000x128_S560x128_1_0_0_1_n_n.lhsBatch by decide), dif_pos (show (0 : Fin S560x10000.rank) ∈ dot_S560x10000_S10000x128_S560x128_1_0_0_1_n_n.lhsNonContracting by decide)]
  rfl
theorem blk_rhs1 (i : S560x128.Idx) (c : dot_S560x10000_S10000x128_S560x128_1_0_0_1_n_n.contr.Idx) :
    (dot_S560x10000_S10000x128_S560x128_1_0_0_1_n_n.rhsIdx i c 1).val = (i 1).val := by
  unfold DotDims.rhsIdx
  rw [dif_neg (show ¬(1 : Fin S10000x128.rank) ∈ dot_S560x10000_S10000x128_S560x128_1_0_0_1_n_n.rhsBatch by decide), dif_pos (show (1 : Fin S10000x128.rank) ∈ dot_S560x10000_S10000x128_S560x128_1_0_0_1_n_n.rhsNonContracting by decide)]
  rfl

/-- The block product `[560, 10000] × [10000, 128]` into zero, at `(p, q)`. -/
theorem matmul_blk_apply (l : FVec Ideal S560x10000 .bf16) (r : FVec Ideal S10000x128 .bf16) (p : Fin 560) (q : Fin 128) :
    matmul dot_S560x10000_S10000x128_S560x128_1_0_0_1_n_n none l r (constant (F := Ideal) S560x128 .f32 0x00000000#32) (ix2 p q)
      = ∑ k : Fin 10000, l (ix2 p k) * r (ix2 k q) := by
  simp only [matmul]
  rw [Ideal.matmul_constant_zero_apply, ← Equiv.sum_comp (contrEquiv1 dot_S560x10000_S10000x128_S560x128_1_0_0_1_n_n 10000 rfl rfl).symm]
  refine Finset.sum_congr rfl fun k _ => ?_
  have hk := contrEquiv1_symm_val dot_S560x10000_S10000x128_S560x128_1_0_0_1_n_n 10000 rfl rfl k
  have el : dot_S560x10000_S10000x128_S560x128_1_0_0_1_n_n.lhsIdx (ix2 p q) ((contrEquiv1 dot_S560x10000_S10000x128_S560x128_1_0_0_1_n_n 10000 rfl rfl).symm k) = ix2 p k := funext fun a => Fin.ext (by
    match a with
    | ⟨0, _⟩ => exact blk_lhs0 _ _
    | ⟨1, _⟩ => exact (dot_S560x10000_S10000x128_S560x128_1_0_0_1_n_n.lhsIdx_val_of_single rfl _ _).trans hk)
  have er : dot_S560x10000_S10000x128_S560x128_1_0_0_1_n_n.rhsIdx (ix2 p q) ((contrEquiv1 dot_S560x10000_S10000x128_S560x128_1_0_0_1_n_n 10000 rfl rfl).symm k) = ix2 k q := funext fun a => Fin.ext (by
    match a with
    | ⟨0, _⟩ => exact (dot_S560x10000_S10000x128_S560x128_1_0_0_1_n_n.rhsIdx_val_of_single rfl _ _).trans hk
    | ⟨1, _⟩ => exact blk_rhs1 _ _)
  rw [el, er]

/-! ## The output block: `A_blk · y2` -/

/-- The output block at `(r, q)`: the row `r` of the block of `A` against the column `q` of `y2`. -/
theorem pay3_apply (a : Vec Ideal S560x10000 .f32) (y : Vec Ideal S10000x128 .bf16) (r : Fin 560) (q : Fin 128) :
    k0_pay3 (F := Ideal) a y (ix2 r q) = ∑ k : Fin 10000, a (ix2 r k) * y (ix2 k q) := by
  unfold k0_pay3
  exact matmul_blk_apply _ _ r q

/-! ## The first layer: `x · W1 + b1` -/

/-- On the product `[10000, 128] × [128, 128]` the left operand's row and the right operand's column
    are the output's. -/
theorem lin_lhs0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lin_rhs1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product `[10000, 128] × [128, 128]` into zero, at `(p, q)`. -/
theorem matmul_lin_apply (l : FVec Ideal S10000x128 .bf16) (r : FVec Ideal S128x128 .bf16) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lin_lhs0 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact lin_rhs1 _ _)
  rw [el, er]

/-- A row vector `[1, 128]` broadcast along 10000 rows reads, at `(p, q)`, its entry `(0, q)`. -/
theorem bias_rows_apply (b : FVec Ideal S1x128 .f32) (p : Fin 10000) (q : Fin 128) :
    broadcastTo S10000x128 b broadcasts_S1x128_S10000x128 (ix2 p q) = b (ix2 0 q) :=
  broadcastTo_apply b broadcasts_S1x128_S10000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The first layer at `(p, q)`: the row `p` of `x` against the column `q` of `W1`, plus `b1` at `q`. -/
theorem pay1_apply (x : Vec Ideal S10000x128 .f32) (w : Vec Ideal S128x128 .f32) (b : Vec Ideal S1x128 .f32) (p : Fin 10000) (q : Fin 128) :
    k0_pay1 (F := Ideal) x w b (ix2 p q) = (∑ k : Fin 128, x (ix2 p k) * w (ix2 k q)) + b (ix2 0 q) := by
  unfold k0_pay1
  rw [shapeCast_self, shapeCast_self]
  show matmul (F := Ideal) dot_S10000x128_S128x128_S10000x128_1_0_0_1_n_n none _ _ _ (ix2 p q) + broadcastTo S10000x128 b broadcasts_S1x128_S10000x128 (ix2 p q) = _
  rw [matmul_lin_apply, bias_rows_apply]
  rfl

/-! ## The second layer: `max (A_blk · y1, 0) · W2 + b2` -/

/-- On the product `[560, 128] × [128, 128]` the left operand's row and the right operand's column are
    the output's. -/
theorem hid_lhs0 (i : S560x128.Idx) (c : dot_S560x128_S128x128_S560x128_1_0_0_1_n_n.contr.Idx) :
    (dot_S560x128_S128x128_S560x128_1_0_0_1_n_n.lhsIdx i c 0).val = (i 0).val := by
  unfold DotDims.lhsIdx
  rw [dif_neg (show ¬(0 : Fin S560x128.rank) ∈ dot_S560x128_S128x128_S560x128_1_0_0_1_n_n.lhsBatch by decide), dif_pos (show (0 : Fin S560x128.rank) ∈ dot_S560x128_S128x128_S560x128_1_0_0_1_n_n.lhsNonContracting by decide)]
  rfl
theorem hid_rhs1 (i : S560x128.Idx) (c : dot_S560x128_S128x128_S560x128_1_0_0_1_n_n.contr.Idx) :
    (dot_S560x128_S128x128_S560x128_1_0_0_1_n_n.rhsIdx i c 1).val = (i 1).val := by
  unfold DotDims.rhsIdx
  rw [dif_neg (show ¬(1 : Fin S128x128.rank) ∈ dot_S560x128_S128x128_S560x128_1_0_0_1_n_n.rhsBatch by decide), dif_pos (show (1 : Fin S128x128.rank) ∈ dot_S560x128_S128x128_S560x128_1_0_0_1_n_n.rhsNonContracting by decide)]
  rfl

/-- The product `[560, 128] × [128, 128]` into zero, at `(p, q)`. -/
theorem matmul_hid_apply (l : FVec Ideal S560x128 .bf16) (r : FVec Ideal S128x128 .bf16) (p : Fin 560) (q : Fin 128) :
    matmul dot_S560x128_S128x128_S560x128_1_0_0_1_n_n none l r (constant (F := Ideal) S560x128 .f32 0x00000000#32) (ix2 p q)
      = ∑ k : Fin 128, l (ix2 p k) * r (ix2 k q) := by
  simp only [matmul]
  rw [Ideal.matmul_constant_zero_apply, ← Equiv.sum_comp (contrEquiv1 dot_S560x128_S128x128_S560x128_1_0_0_1_n_n 128 rfl rfl).symm]
  refine Finset.sum_congr rfl fun k _ => ?_
  have hk := contrEquiv1_symm_val dot_S560x128_S128x128_S560x128_1_0_0_1_n_n 128 rfl rfl k
  have el : dot_S560x128_S128x128_S560x128_1_0_0_1_n_n.lhsIdx (ix2 p q) ((contrEquiv1 dot_S560x128_S128x128_S560x128_1_0_0_1_n_n 128 rfl rfl).symm k) = ix2 p k := funext fun a => Fin.ext (by
    match a with
    | ⟨0, _⟩ => exact hid_lhs0 _ _
    | ⟨1, _⟩ => exact (dot_S560x128_S128x128_S560x128_1_0_0_1_n_n.lhsIdx_val_of_single rfl _ _).trans hk)
  have er : dot_S560x128_S128x128_S560x128_1_0_0_1_n_n.rhsIdx (ix2 p q) ((contrEquiv1 dot_S560x128_S128x128_S560x128_1_0_0_1_n_n 128 rfl rfl).symm k) = ix2 k q := funext fun a => Fin.ext (by
    match a with
    | ⟨0, _⟩ => exact (dot_S560x128_S128x128_S560x128_1_0_0_1_n_n.rhsIdx_val_of_single rfl _ _).trans hk
    | ⟨1, _⟩ => exact hid_rhs1 _ _)
  rw [el, er]

/-- A row vector `[1, 128]` broadcast along 560 rows reads, at `(p, q)`, its entry `(0, q)`. -/
theorem bias_blk_apply (b : FVec Ideal S1x128 .f32) (p : Fin 560) (q : Fin 128) :
    broadcastTo S560x128 b broadcasts_S1x128_S560x128 (ix2 p q) = b (ix2 0 q) :=
  broadcastTo_apply b broadcasts_S1x128_S560x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The rectified block product at `(p, l)`: the larger of `∑ k, a (p, k) * y (k, l)` and `0`. The
    zero it is compared with is the splat of the word of the float `0.0`, the extended real `0`. -/
theorem relu_blk_apply (a : FVec Ideal S560x10000 .bf16) (y : FVec Ideal S10000x128 .bf16) (p : Fin 560) (l : Fin 128) :
    maximumf (matmul dot_S560x10000_S10000x128_S560x128_1_0_0_1_n_n none a y (constant (F := Ideal) S560x128 .f32 0x00000000#32))
        (broadcast S560x128 (Scalar.ofBits (F := Ideal) .f32 0x00000000#32)) (ix2 p l)
      = max (∑ k : Fin 10000, a (ix2 p k) * y (ix2 k l)) 0 := by
  show max (matmul (F := Ideal) dot_S560x10000_S10000x128_S560x128_1_0_0_1_n_n none a y _ (ix2 p l)) (Ideal.ofBits .f32 0x00000000#32) = _
  rw [matmul_blk_apply, Ideal.ofBits_zero_f32]

/-- The second layer at `(r, q)`: the rectified row `r` of `A_blk · y1` against the column `q` of `W2`,
    plus `b2` at `q`. -/
theorem pay2_apply (a : Vec Ideal S560x10000 .f32) (y : Vec Ideal S10000x128 .bf16) (w : Vec Ideal S128x128 .f32) (b : Vec Ideal S1x128 .f32) (r : Fin 560) (q : Fin 128) :
    k0_pay2 (F := Ideal) a y w b (ix2 r q)
      = (∑ l : Fin 128, max (∑ k : Fin 10000, a (ix2 r k) * y (ix2 k l)) 0 * w (ix2 l q)) + b (ix2 0 q) := by
  unfold k0_pay2
  rw [shapeCast_self, shapeCast_self]
  show matmul (F := Ideal) dot_S560x128_S128x128_S560x128_1_0_0_1_n_n none _ _ _ (ix2 r q) + broadcastTo S560x128 b broadcasts_S1x128_S560x128 (ix2 r q) = _
  rw [matmul_hid_apply, bias_blk_apply]
  refine congrArg (· + b (ix2 0 q)) (Finset.sum_congr rfl fun l _ => ?_)
  exact congrArg (· * w (ix2 l q)) (relu_blk_apply _ _ r l)

end Cert.Gcn.PayAt

end
-- ==== Proof.Bridge.lean ====
/-
  The kernel's three stored values are the specification's stages.

  The specification states the two-layer graph convolution stage by stage over whole arrays:
  `y1 = x · W1 + b1`, `hid = max (A · y) 0`, `y2 = hid · W2 + b2`, `out = A · y`. The kernel's stored
  values are the same expressions, read at one index, over the operands it has loaded: the bias
  as a `[1, 128]` row instead of a `[128]` vector, and of `A` only one block of 560 rows, whose row
  `r` is row `560 * kb + r` of `A`. Given those two readings of the operands, each stored value at
  an index is the specification's stage at the corresponding index of the whole array: the sums
  agree term by term.
-/
import proofs.«112791_g36962488549418_cont_sun_m_245_12_alg».proof.Proof.PayAt
import proofs.«112791_g36962488549418_cont_sun_m_245_12_alg».proof.Proof.Spec

noncomputable section

namespace Cert.Gcn.Bridge

open Cert.KernelIdeal Cert.KernelIdeal.Gen Idealize.ShloMosaic
open Idealize.ShloMosaic.ValueIdx (ix1 ix2 eq_ix2)
open Cert.Gcn.PayAt
open scoped BigOperators

/-- The first layer's stored value is the specification's first layer, as whole arrays, when the
    bias row the kernel loaded is the bias vector. -/
theorem y1_of_pay1 (x : Vec Ideal S10000x128 .f32) (w1 : Vec Ideal S128x128 .f32) (b1r : Vec Ideal S1x128 .f32)
    (b1 : (⟨1, ![128]⟩ : Shape).Idx → EReal) (hb : ∀ q : Fin 128, b1r (ix2 0 q) = b1 (ix1 q)) :
    (k0_pay1 (F := Ideal) x w1 b1r) = Cert.Gcn.Spec.y1 x w1 b1 := by
  funext i
  obtain ⟨p, q, rfl⟩ : ∃ (p : Fin 10000) (q : Fin 128), i = ix2 p q := ⟨i 0, i 1, eq_ix2 i⟩
  rw [pay1_apply, Cert.Gcn.Spec.y1_ix2, hb q]

/-- The second layer's stored block at `(r, q)` is the specification's second layer at row
    `560 * kb + r`, when the loaded block of `A` is rows `560 * kb …` of `A` and the loaded bias row is
    the bias vector. -/
theorem y2_of_pay2 (a : Vec Ideal S560x10000 .f32) (A : (⟨2, ![10000, 10000]⟩ : Shape).Idx → EReal)
    (y : Vec Ideal S10000x128 .bf16) (w2 : Vec Ideal S128x128 .f32) (b2r : Vec Ideal S1x128 .f32)
    (b2 : (⟨1, ![128]⟩ : Shape).Idx → EReal) (hb : ∀ q : Fin 128, b2r (ix2 0 q) = b2 (ix1 q))
    (kb : Fin 18) (r : Fin 560) (q : Fin 128) (hr : 560 * kb.val + r.val < 10000)
    (ha : ∀ k : Fin 10000, a (ix2 r k) = A (ix2 ⟨560 * kb.val + r.val, hr⟩ k)) :
    k0_pay2 (F := Ideal) a y w2 b2r (ix2 r q)
      = Cert.Gcn.Spec.y2 (Cert.Gcn.Spec.hid A y) w2 b2 (ix2 ⟨560 * kb.val + r.val, hr⟩ q) := by
  rw [pay2_apply, Cert.Gcn.Spec.y2_ix2, hb q]
  refine congrArg (· + b2 (ix1 q)) (Finset.sum_congr rfl fun l _ => ?_)
  rw [Cert.Gcn.Spec.hid_ix2]
  refine congrArg (fun s => max s 0 * w2 (ix2 l q)) (Finset.sum_congr rfl fun k _ => ?_)
  rw [ha k]

/-- The output's stored block at `(r, q)` is the specification's final aggregation at row
    `560 * kb + r`, when the loaded block of `A` is rows `560 * kb …` of `A`. -/
theorem out_of_pay3 (a : Vec Ideal S560x10000 .f32) (A : (⟨2, ![10000, 10000]⟩ : Shape).Idx → EReal)
    (y : Vec Ideal S10000x128 .bf16) (kb : Fin 18) (r : Fin 560) (q : Fin 128) (hr : 560 * kb.val + r.val < 10000)
    (ha : ∀ k : Fin 10000, a (ix2 r k) = A (ix2 ⟨560 * kb.val + r.val, hr⟩ k)) :
    k0_pay3 (F := Ideal) a y (ix2 r q) = Cert.Gcn.Spec.out A y (ix2 ⟨560 * kb.val + r.val, hr⟩ q) := by
  rw [pay3_apply, Cert.Gcn.Spec.out_ix2]
  refine Finset.sum_congr rfl fun k _ => ?_
  rw [ha k]

end Cert.Gcn.Bridge

end
-- ==== Proof.ValueData.lean ====
/-
  The mathematics of the kernel's run, apart from any memory: what the two scratch buffers hold between grid points,
  stated as a predicate on their contents, that one more first-phase point keeps it, and that in the second phase a
  block of A times the second scratch buffer is a block of the result
      out = A·y2,   y2 = max(A·y1, 0)·W2 + b2,   y1 = x·W1 + b1.
  The grid is two phases of eighteen row blocks of 560 rows; A has 10000 rows, so the last block has 480 rows inside
  the array, and the second scratch buffer has 18·560 = 10080 rows of which the last 80 are never read.
-/
import proofs.«112791_g36962488549418_cont_sun_m_245_12_alg».proof.Proof.Spec
import proofs.«112791_g36962488549418_cont_sun_m_245_12_alg».proof.Proof.Bridge
import proofs.«112791_g36962488549418_cont_sun_m_245_12_alg».proof.Proof.FrameIdeal
import Idealize.ShloMosaic.Lib.ValueIdx

noncomputable section

namespace Cert.KernelIdeal.Val

open Cert.KernelIdeal Cert.KernelIdeal.Gen
open Idealize.ShloMosaic Idealize.ShloMosaic.TcCoe Idealize.ShloMosaic.ValueIdx Idealize.SL.Sem
open Cert.Gcn

variable (m : (ℓ : Loc nD τ sig) → Buf (Elt Ideal) ℓ)

/-! ## The arguments on a core, and the three layers of the formula -/

abbrev xM (c : Dev nD) : S10000x128.Idx → EReal := m ((c : Thread nD τ).loc main_arg0)
abbrev aM (c : Dev nD) : S10000x10000.Idx → EReal := m ((c : Thread nD τ).loc main_arg1)
abbrev w1M (c : Dev nD) : S128x128.Idx → EReal := m ((c : Thread nD τ).loc main_arg2)
abbrev b1M (c : Dev nD) : S128.Idx → EReal := m ((c : Thread nD τ).loc main_arg3)
abbrev w2M (c : Dev nD) : S128x128.Idx → EReal := m ((c : Thread nD τ).loc main_arg4)
abbrev b2M (c : Dev nD) : S128.Idx → EReal := m ((c : Thread nD τ).loc main_arg5)

/-- The first layer x·W1 + b1, -/
def Y1 (c : Dev nD) : S10000x128.Idx → EReal := Spec.y1 (xM m c) (w1M m c) (b1M m c)
/-- the second max(A·y1, 0)·W2 + b2, -/
def Y2 (c : Dev nD) : S10000x128.Idx → EReal := Spec.y2 (Spec.hid (aM m c) (Y1 m c)) (w2M m c) (b2M m c)
/-- and the result A·y2. -/
def Gc (c : Dev nD) : S10000x128.Idx → EReal := Spec.G (xM m c) (aM m c) (w1M m c) (b1M m c) (w2M m c) (b2M m c)

theorem Gc_eq (c : Dev nD) : Gc m c = Spec.out (aM m c) (Y2 m c) := rfl

/-! ## What the scratch buffers hold after point n -/

/-- After point n the first scratch buffer holds the first layer, and the rows of the second scratch buffer below
    560·(n + 1) — the blocks the first phase has stored so far — that are rows of the arrays hold the second layer. -/
def Inv (c : Dev nD) (n : ℕ) (d0 : Vec Ideal S10000x128 .bf16) (d1 : Vec Ideal S10080x128 .bf16) : Prop :=
  d0 = Y1 m c ∧ ∀ (j : S10080x128.Idx) (hj : (j (0 : Fin 2)).val < 10000), (j (0 : Fin 2)).val < 560 * (n + 1) →
    d1 j = Y2 m c (ix2 ⟨(j (0 : Fin 2)).val, hj⟩ ⟨(j (1 : Fin 2)).val, (j (1 : Fin 2)).isLt⟩)

/-- Once all eighteen blocks are stored nothing more is asked. -/
theorem Inv.mono (c : Dev nD) {n n' : ℕ} (hn : 17 ≤ n) {d0 : Vec Ideal S10000x128 .bf16} {d1 : Vec Ideal S10080x128 .bf16}
    (h : Inv m c n d0 d1) : Inv m c n' d0 d1 :=
  ⟨h.1, fun j hj _ => h.2 j hj (by omega)⟩

/-- One more block of the first phase. The block of A staged at point t (rows 560·t …) reads as those rows of A on
    the rows inside the array; the scratch buffer y' is d1 with rows 560·t … 560·t + 559 overwritten by the block's
    payload. -/
theorem Inv.step (c : Dev nD) (t : ℕ) (ht : t < 18) (d0 : Vec Ideal S10000x128 .bf16) (d1 y' : Vec Ideal S10080x128 .bf16)
    (a : Vec Ideal S560x10000 .f32) (w2 : Vec Ideal S128x128 .f32) (b2r : Vec Ideal S1x128 .f32)
    (hd0 : d0 = Y1 m c) (hprev : t ≠ 0 → Inv m c (t - 1) d0 d1)
    (ha : ∀ (r : Fin 560) (k : Fin 10000) (hr : 560 * t + r.val < 10000), a (ix2 r k) = aM m c (ix2 ⟨560 * t + r.val, hr⟩ k))
    (hw2 : w2 = w2M m c) (hb : ∀ q : Fin 128, b2r (ix2 0 q) = b2M m c (ix1 q))
    (hin : ∀ (j : S10080x128.Idx) (x : S560x128.Idx), (j (0 : Fin 2)).val = 560 * t + (x (0 : Fin 2)).val →
      (j (1 : Fin 2)).val = (x (1 : Fin 2)).val → y' j = k0_pay2 (F := Ideal) a d0 w2 b2r x)
    (hout : ∀ j : S10080x128.Idx, ((j (0 : Fin 2)).val < 560 * t ∨ 560 * t + 560 ≤ (j (0 : Fin 2)).val) → y' j = d1 j) :
    Inv m c t d0 y' := by
  refine ⟨hd0, fun j hj hlt => ?_⟩
  by_cases h : (j (0 : Fin 2)).val < 560 * t
  · rw [hout j (Or.inl h)]
    have ht0 : t ≠ 0 := by rintro rfl; omega
    exact (hprev ht0).2 j hj (by omega)
  · have h' : 560 * t ≤ (j (0 : Fin 2)).val := Nat.le_of_not_lt h
    obtain ⟨r0, hr0⟩ : ∃ r0, (j (0 : Fin 2)).val = 560 * t + r0 := ⟨_, (Nat.add_sub_cancel' h').symm⟩
    have hr : r0 < 560 := by omega
    have hr' : 560 * t + r0 < 10000 := by omega
    rw [hin j (ix2 ⟨r0, hr⟩ ⟨(j (1 : Fin 2)).val, (j (1 : Fin 2)).isLt⟩) hr0 rfl]
    rw [Bridge.y2_of_pay2 a (aM m c) d0 w2 b2r (b2M m c) hb ⟨t, ht⟩ ⟨r0, hr⟩ ⟨(j (1 : Fin 2)).val, (j (1 : Fin 2)).isLt⟩ hr'
      (fun k => ha _ k hr')]
    subst hd0 hw2
    unfold Y2
    congr 1
    exact congrArg₂ ix2 (Fin.ext hr0.symm) rfl

/-! ## A block of the result -/

/-- In the second phase, at the block whose first row is 560·kb, the staged block of A times the first 10000 rows of
    the second scratch buffer is, on the rows inside the array, that block of the result. -/
theorem out_rows (c : Dev nD) (kb : ℕ) (hkb : kb < 18) (d0 : Vec Ideal S10000x128 .bf16) (d1 : Vec Ideal S10080x128 .bf16)
    (hI : Inv m c 17 d0 d1) (a : Vec Ideal S560x10000 .f32) (top : Vec Ideal S10000x128 .bf16)
    (htop : ∀ (p : Fin 10000) (q : Fin 128), top (ix2 p q) = d1 (ix2 ⟨p.val, by omega⟩ q))
    (ha : ∀ (r : Fin 560) (k : Fin 10000) (hr : 560 * kb + r.val < 10000), a (ix2 r k) = aM m c (ix2 ⟨560 * kb + r.val, hr⟩ k))
    (r : Fin 560) (q : Fin 128) (hr : 560 * kb + r.val < 10000) :
    k0_pay3 (F := Ideal) a top (ix2 r q) = Gc m c (ix2 ⟨560 * kb + r.val, hr⟩ q) := by
  rw [Bridge.out_of_pay3 a (aM m c) top ⟨kb, hkb⟩ r q hr (fun k => ha r k hr), Gc_eq]
  have e : (top : S10000x128.Idx → EReal) = Y2 m c := by
    funext i
    obtain ⟨p, q', rfl⟩ : ∃ (p : Fin 10000) (q' : Fin 128), i = ix2 p q' := ⟨i 0, i 1, eq_ix2 i⟩
    rw [htop p q']
    exact hI.2 (ix2 ⟨p.val, by omega⟩ q') p.isLt (by show p.val < 560 * (17 + 1); omega)
  rw [e]

end Cert.KernelIdeal.Val

end
-- ==== Proof.Blocks.lean ====
/-
  The geometry of the two row-blocked arrays of the kernel's grid.

  The grid has 2 × 18 = 36 points, run in row-major order: point `t` has coordinates
  `(t / 18, t % 18)`. The matrix `A : [10000, 10000]` is read in blocks of 560 rows: at point `t` the
  block is number `t % 18`, rows `560 * (t % 18) …`. The result `[10000, 128]` is written in blocks of
  560 rows: during the first pass (`t < 18`) the block number stays `0` and nothing is written back;
  during the second pass (`18 ≤ t`) the block is number `t - 18`, rows `560 * (t - 18) …`, written
  back at every point. Since `10000 = 17 * 560 + 480`, the last block of either array overhangs the
  array by 80 rows and is cut to its first 480 rows. The blocks written back during the second pass
  tile the result: row `r` lies in the block of point `18 + r / 560`.
-/
import proofs.«112791_g36962488549418_cont_sun_m_245_12_alg».proof.Proof.Gen.KernelIdeal.Points
import Idealize.ShloMosaic.Lib.Pipeline.Value

noncomputable section

namespace Cert.Gcn.Blocks

open Cert.KernelIdeal Cert.KernelIdeal.Gen Idealize.ShloMosaic

/-! ## The block numbers and cut sizes, decided once over the 36 points -/

/-- The result is written back exactly at the points of the second pass. -/
theorem flush6_iff : ∀ t : Fin cfg0.N, (cfg0.win 6).flush t = true ↔ 18 ≤ t.val :=
  (by decide +kernel : ∀ t : Fin grid0.N, win0_6.flush t = true ↔ 18 ≤ t.val)

/-- The block of `A` at point `t` is number `t % 18` on the rows and `0` on the columns; it has 560
    rows, the last one (`t % 18 = 17`) cut to 480, and all 10000 columns. -/
theorem idx0 : ∀ t : Fin cfg0.N, win0_0.index t (0 : Fin 2) = t.val % 18 ∧ win0_0.index t (1 : Fin 2) = 0
    ∧ win0_0.xsize (grid0.coords t) (0 : Fin 2) = (if t.val % 18 = 17 then 480 else 560)
    ∧ win0_0.xsize (grid0.coords t) (1 : Fin 2) = 10000 :=
  (by decide +kernel : ∀ t : Fin grid0.N, _)

/-- During the second pass the block of the result at point `t` is number `t - 18` on the rows and
    `0` on the columns; it has 560 rows, the last one (`t = 35`) cut to 480, and all 128 columns. -/
theorem idx6 : ∀ t : Fin cfg0.N, 18 ≤ t.val → win0_6.index t (0 : Fin 2) = t.val - 18 ∧ win0_6.index t (1 : Fin 2) = 0
    ∧ win0_6.xsize (grid0.coords t) (0 : Fin 2) = (if t.val = 35 then 480 else 560)
    ∧ win0_6.xsize (grid0.coords t) (1 : Fin 2) = 128 :=
  (by decide +kernel : ∀ t : Fin grid0.N, _)

/-! ## Where a block's entries sit in its array

A block's entry at `y` sits in the array at block number × block size + `y`, on each axis. -/

/-- The block of `A` at point `t`: its entry `y` is row `560 * (t % 18) + y 0`, column `y 1` of `A`. -/
theorem emb0 (t : Fin cfg0.N) (y : (win0_0.xblock (grid0.coords t)).Idx) :
    ((win0_0.blk t).view.emb y (0 : Fin 2)).val = 560 * (t.val % 18) + (y (0 : Fin 2)).val
      ∧ ((win0_0.blk t).view.emb y (1 : Fin 2)).val = (y (1 : Fin 2)).val := by
  obtain ⟨e0, e1, -, -⟩ := idx0 t
  constructor
  · show win0_0.index t (0 : Fin 2) * 560 + 1 * (y (0 : Fin 2)).val = _
    rw [e0]; omega
  · show win0_0.index t (1 : Fin 2) * 10000 + 1 * (y (1 : Fin 2)).val = _
    rw [e1]; omega

/-- The block of the result at a point `t` of the second pass: its entry `y` is row
    `560 * (t - 18) + y 0`, column `y 1` of the result. -/
theorem emb6 (t : Fin cfg0.N) (ht : 18 ≤ t.val) (y : (win0_6.xblock (grid0.coords t)).Idx) :
    ((win0_6.blk t).view.emb y (0 : Fin 2)).val = 560 * (t.val - 18) + (y (0 : Fin 2)).val
      ∧ ((win0_6.blk t).view.emb y (1 : Fin 2)).val = (y (1 : Fin 2)).val := by
  obtain ⟨e0, e1, -, -⟩ := idx6 t ht
  constructor
  · show win0_6.index t (0 : Fin 2) * 560 + 1 * (y (0 : Fin 2)).val = _
    rw [e0]; omega
  · show win0_6.index t (1 : Fin 2) * 128 + 1 * (y (1 : Fin 2)).val = _
    rw [e1]; omega

/-! ## Which rows a written-back block covers, and that the blocks cover the result -/

/-- An index of the result is in the block of a point `t` of the second pass iff its row is among the
    block's 560 rows (the last block's rows past the array's end are no rows of the array; every
    column is in the block). -/
theorem mem_blk6 (t : Fin cfg0.N) (ht : 18 ≤ t.val) (i : S10000x128.Idx) :
    i ∈ (win0_6.blk t).view.set ↔ 560 * (t.val - 18) ≤ (i 0).val ∧ (i 0).val < 560 * (t.val - 18) + 560 := by
  show i ∈ ((View.whole main_v0).slice (win0_6.rect t)).set ↔ _
  rw [View.set_slice_whole, Rect.mem_set_unit]
  obtain ⟨e0, e1, x0, x1⟩ := idx6 t ht
  have h0 : (i 0).val < 10000 := (i 0).isLt
  have h1 : (i 1).val < 128 := (i 1).isLt
  have hN : t.val < 36 := t.isLt
  constructor
  · intro h
    have b0 : win0_6.index t (0 : Fin 2) * 560 ≤ (i 0).val
        ∧ (i 0).val < win0_6.index t (0 : Fin 2) * 560 + win0_6.xsize (grid0.coords t) (0 : Fin 2) := h 0
    rw [e0, x0] at b0
    split_ifs at b0 <;> omega
  · intro h a
    match a with
    | ⟨0, _⟩ =>
      show win0_6.index t (0 : Fin 2) * 560 ≤ (i 0).val
        ∧ (i 0).val < win0_6.index t (0 : Fin 2) * 560 + win0_6.xsize (grid0.coords t) (0 : Fin 2)
      rw [e0, x0]
      split_ifs <;> omega
    | ⟨1, _⟩ =>
      show win0_6.index t (1 : Fin 2) * 128 ≤ (i 1).val
        ∧ (i 1).val < win0_6.index t (1 : Fin 2) * 128 + win0_6.xsize (grid0.coords t) (1 : Fin 2)
      rw [e1, x1]
      omega

/-- Every index of the result is in the block some point writes back: row `r` is in the block of
    point `18 + r / 560`. -/
theorem cover6 (i : S10000x128.Idx) :
    ∃ t : Fin cfg0.N, (cfg0.win 6).flush t = true ∧ i ∈ ((cfg0.win 6).blk t).view.set := by
  have h0 : (i 0).val < 10000 := (i 0).isLt
  have hN : cfg0.N = 36 := rfl
  refine ⟨⟨18 + (i 0).val / 560, by rw [hN]; omega⟩, (flush6_iff _).mpr (Nat.le_add_right _ _), ?_⟩
  refine (mem_blk6 _ (Nat.le_add_right _ _) i).mpr ?_
  show 560 * (18 + (i 0).val / 560 - 18) ≤ (i 0).val ∧ (i 0).val < 560 * (18 + (i 0).val / 560 - 18) + 560
  omega

end Cert.Gcn.Blocks

end
-- ==== Proof.WholeBlocks.lean ====
/-
  The pipeline's whole-array windows. Five of the kernel's input windows stage an entire array as one block:
  the block index is (0, 0) at every point of the grid and the block is as large as the array, so the block a
  point reads is the array itself, index by index: node features, the two weight matrices and the two bias rows.
  The bias rows reach the region as [1,128] arrays, written before it by a reshape of the [128] arguments;
  a reshape keeps the row-major position, so entry (0, q) of the reshaped row is entry q of the argument.
-/
import proofs.«112791_g36962488549418_cont_sun_m_245_12_alg».proof.Proof.Gen.KernelIdeal.Frame
import Idealize.ShloMosaic.Lib.Pipeline.Value
import Idealize.ShloMosaic.Lib.ValueIdx
import Idealize.ShloMosaic.Lib.ValueLayout

noncomputable section

namespace Cert.Gcn.WholeBlocks

open Cert.KernelIdeal Cert.KernelIdeal.Gen Idealize.ShloMosaic Idealize.ShloMosaic.TcCoe Idealize.SL.Sem
  Idealize.ShloMosaic.ValueIdx

variable {F : FTy → Type} [FloatOps F] (m : (ℓ : Loc nD τ sig) → Buf (Elt F) ℓ)

/-! ## The block index of a whole-array window is (0, 0) at every point -/

theorem idx_zero : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The block read is the array -/

/-- Window 1 (node features, [10000,128]). -/
theorem blk1 (c : Dev nD) (t : Fin cfg0.N) : (iblk m c 1 t : S10000x128.Idx → Elt F .f32) = V m c main_arg0 := by
  have h := idx_zero t
  funext y
  show V m c main_arg0 (((cfg0.win 1).blk t).view.emb y) = V m c main_arg0 y
  refine congrArg _ (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- Window 2 (first weight matrix, [128,128]). -/
theorem blk2 (c : Dev nD) (t : Fin cfg0.N) : (iblk m c 2 t : S128x128.Idx → Elt F .f32) = V m c main_arg2 := by
  have h := idx_zero t
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 (first bias row as a [1,128] array). -/
theorem blk3 (c : Dev nD) (t : Fin cfg0.N) : (iblk m c 3 t : S1x128.Idx → Elt F .f32) = V m c main_call0_v0 := by
  have h := idx_zero t
  funext y
  show V m c main_call0_v0 (((cfg0.win 3).blk t).view.emb y) = V m c main_call0_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4 (second weight matrix, [128,128]). -/
theorem blk4 (c : Dev nD) (t : Fin cfg0.N) : (iblk m c 4 t : S128x128.Idx → Elt F .f32) = V m c main_arg4 := by
  have h := idx_zero t
  funext y
  show V m c main_arg4 (((cfg0.win 4).blk t).view.emb y) = V m c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 (second bias row as a [1,128] array). -/
theorem blk5 (c : Dev nD) (t : Fin cfg0.N) : (iblk m c 5 t : S1x128.Idx → Elt F .f32) = V m c main_call0_v1 := by
  have h := idx_zero t
  funext y
  show V m c main_call0_v1 (((cfg0.win 5).blk t).view.emb y) = V m c main_call0_v1 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! ## The argument arrays the region finds are the launch contents -/

/-- Window 1's block is the node-feature argument as launched. -/
theorem blk1_arg (c : Dev nD) (t : Fin cfg0.N) :
    (iblk m c 1 t : S10000x128.Idx → Elt F .f32) = m ((c : Thread nD τ).loc main_arg0) :=
  (blk1 m c t).trans (V_main_arg0 m c)
/-- Window 2's block is the first weight matrix as launched. -/
theorem blk2_arg (c : Dev nD) (t : Fin cfg0.N) :
    (iblk m c 2 t : S128x128.Idx → Elt F .f32) = m ((c : Thread nD τ).loc main_arg2) :=
  (blk2 m c t).trans (V_main_arg2 m c)
/-- Window 4's block is the second weight matrix as launched. -/
theorem blk4_arg (c : Dev nD) (t : Fin cfg0.N) :
    (iblk m c 4 t : S128x128.Idx → Elt F .f32) = m ((c : Thread nD τ).loc main_arg4) :=
  (blk4 m c t).trans (V_main_arg4 m c)

/-! ## The reshaped bias rows -/

/-- The [1,128] array the region finds is the reshape of the first bias argument. -/
theorem b1r_eq (c : Dev nD) :
    (V m c main_call0_v0 : S1x128.Idx → Elt F .f32)
      = shapeCast S1x128 (m ((c : Thread nD τ).loc main_arg3) : S128.Idx → Elt F .f32) shapeCasts_S128_S1x128 := by
  dsimp only [Gen.V, Gen.hostOps0]; after_results; rfl

/-- The [1,128] array the region finds is the reshape of the second bias argument. -/
theorem b2r_eq (c : Dev nD) :
    (V m c main_call0_v1 : S1x128.Idx → Elt F .f32)
      = shapeCast S1x128 (m ((c : Thread nD τ).loc main_arg5) : S128.Idx → Elt F .f32) shapeCasts_S128_S1x128 := by
  dsimp only [Gen.V, Gen.hostOps0]; after_results; rfl

/-- Entry `(0, q)` of the reshaped first bias row is entry `q` of the argument. -/
theorem b1r_apply (c : Dev nD) (q : Fin 128) :
    (V m c main_call0_v0 : S1x128.Idx → Elt F .f32) (ix2 0 q) = m ((c : Thread nD τ).loc main_arg3) (ix1 q) := by
  rw [b1r_eq]
  exact shapeCast_a_1a_apply _ shapeCasts_S128_S1x128 0 q

/-- Entry `(0, q)` of the reshaped second bias row is entry `q` of the argument. -/
theorem b2r_apply (c : Dev nD) (q : Fin 128) :
    (V m c main_call0_v1 : S1x128.Idx → Elt F .f32) (ix2 0 q) = m ((c : Thread nD τ).loc main_arg5) (ix1 q) := by
  rw [b2r_eq]
  exact shapeCast_a_1a_apply _ shapeCasts_S128_S1x128 0 q

/-- Window 3's block at `(0, q)` is entry `q` of the first bias argument as launched. -/
theorem blk3_apply (c : Dev nD) (t : Fin cfg0.N) (q : Fin 128) :
    (iblk m c 3 t : S1x128.Idx → Elt F .f32) (ix2 0 q) = m ((c : Thread nD τ).loc main_arg3) (ix1 q) :=
  (congrFun (blk3 m c t) (ix2 0 q)).trans (b1r_apply m c q)

/-- Window 5's block at `(0, q)` is entry `q` of the second bias argument as launched. -/
theorem blk5_apply (c : Dev nD) (t : Fin cfg0.N) (q : Fin 128) :
    (iblk m c 5 t : S1x128.Idx → Elt F .f32) (ix2 0 q) = m ((c : Thread nD τ).loc main_arg5) (ix1 q) :=
  (congrFun (blk5 m c t) (ix2 0 q)).trans (b2r_apply m c q)

end Cert.Gcn.WholeBlocks

end
-- ==== Proof.Rows.lean ====
/-
  The two row-blocked arrays at a point of the grid.

  The matrix `A : [10000, 10000]` is staged in blocks of 560 rows; the last block overhangs the array by 80
  rows, so only its first 480 rows are fetched and the rest of the staging buffer keeps whatever it held.
  A row of the staged block that lies inside the array is that row of `A`, whatever fills the rest.
  The result `[10000, 128]` is written back in blocks of 560 rows, the last one cut to 480 rows in the same
  way: what a point writes back is the part of its block inside the array, so it is the block of a function
  of the array's indices as soon as the staged block agrees with that function on the rows inside the array.
-/
import proofs.«112791_g36962488549418_cont_sun_m_245_12_alg».proof.Proof.Blocks
import proofs.«112791_g36962488549418_cont_sun_m_245_12_alg».proof.Proof.Gen.KernelIdeal.Frame
import Idealize.ShloMosaic.Lib.ValueIdx

noncomputable section

namespace Cert.Gcn.Rows

open Cert.KernelIdeal Cert.KernelIdeal.Gen Idealize.ShloMosaic Idealize.ShloMosaic.TcCoe Idealize.SL.Sem
  Idealize.ShloMosaic.ValueIdx

variable {F : FTy → Type} [FloatOps F] (m : (ℓ : Loc nD τ sig) → Buf (Elt F) ℓ)

/-! ## A staged row of `A` inside the array -/

/-- Row `r` of the block of `A` staged at point `t`, when row `560 * (t % 18) + r` is a row of `A`, is that row
    of `A` as launched — whatever contents `d` the fetch leaves in the rows past the array's end. -/
theorem a_row (c : Dev nD) (t : Fin cfg0.N) (d : S560x10000.Idx → Elt F .f32) (r : Fin 560) (k : Fin 10000)
    (hr : 560 * (t.val % 18) + r.val < 10000) :
    win0_0.fill (grid0.coords t) d (iblk m c 0 t) (ix2 r k)
      = m ((c : Thread nD τ).loc main_arg1) (ix2 ⟨560 * (t.val % 18) + r.val, hr⟩ k) := by
  obtain ⟨e0, e1, x0, x1⟩ := Cert.Gcn.Blocks.idx0 t
  -- the row and the column are among those the fetch moves
  have hr0 : r.val < win0_0.xsize (grid0.coords t) (0 : Fin 2) := by
    rw [x0]; split_ifs with h17
    · omega
    · exact r.isLt
  have hk1 : k.val < win0_0.xsize (grid0.coords t) (1 : Fin 2) := by rw [x1]; exact k.isLt
  have hb : ∀ a : Fin 2, ((ix2 r k : S560x10000.Idx) a).val < win0_0.xsize (grid0.coords t) a := by
    intro a
    match a with
    | ⟨0, _⟩ => exact hr0
    | ⟨1, _⟩ => exact hk1
  have hmv : win0_0.moved (grid0.coords t) (ix2 r k : S560x10000.Idx) = true := (win0_0.moved_iff _ _).mpr hb
  -- so the filled block holds there what was fetched: the array at the block's position
  unfold Pipeline.Window.fill
  rw [dif_pos hmv]
  show V m c main_arg1 ((win0_0.blk t).view.emb _) = _
  rw [V_main_arg1]
  refine congrArg _ (funext fun a => Fin.ext ?_)
  match a with
  | ⟨0, _⟩ => exact (Cert.Gcn.Blocks.emb0 t _).1
  | ⟨1, _⟩ => exact (Cert.Gcn.Blocks.emb0 t _).2

/-! ## What a point of the second pass writes back -/

/-- At a point `t` of the second pass, if the staged block `X` agrees with `G'` on every row that lies inside the
    array (row `r` of the block being row `560 * (t - 18) + r` of the array), then what is written back — the
    part of `X` inside the array — is the block of `G'` at `t`. -/
theorem cut6_eq (t : Fin cfg0.N) (ht : 18 ≤ t.val) (X : S560x128.Idx → Elt F .f32) (G' : S10000x128.Idx → Elt F .f32)
    (h : ∀ (r : Fin 560) (q : Fin 128) (hr : 560 * (t.val - 18) + r.val < 10000),
      X (ix2 r q) = G' (ix2 ⟨560 * (t.val - 18) + r.val, hr⟩ q)) :
    win0_6.cut (grid0.coords t) X = (win0_6.blk t).view.read (Elt F) G' := by
  funext j
  show X (win0_6.xinj (grid0.coords t) j) = G' ((win0_6.blk t).view.emb j)
  obtain ⟨e0, e1, x0, x1⟩ := Cert.Gcn.Blocks.idx6 t ht
  obtain ⟨q0, q1⟩ := Cert.Gcn.Blocks.emb6 t ht j
  have hj0 : (j (0 : Fin 2)).val < win0_6.xsize (grid0.coords t) (0 : Fin 2) := (j (0 : Fin 2)).isLt
  have hj1 : (j (1 : Fin 2)).val < win0_6.xsize (grid0.coords t) (1 : Fin 2) := (j (1 : Fin 2)).isLt
  have hr560 : (j (0 : Fin 2)).val < 560 := by
    rw [x0] at hj0; split_ifs at hj0 <;> omega
  have hq128 : (j (1 : Fin 2)).val < 128 := by rw [x1] at hj1; exact hj1
  -- the embedded index is an index of the array
  have hemb : ((win0_6.blk t).view.emb j (0 : Fin 2)).val < 10000 := ((win0_6.blk t).view.emb j (0 : Fin 2)).isLt
  have hr : 560 * (t.val - 18) + (j (0 : Fin 2)).val < 10000 := by rw [← q0]; exact hemb
  have hX : win0_6.xinj (grid0.coords t) j
      = (ix2 (⟨(j (0 : Fin 2)).val, hr560⟩ : Fin 560) (⟨(j (1 : Fin 2)).val, hq128⟩ : Fin 128) : S560x128.Idx) :=
    funext fun a => Fin.ext (by match a with | ⟨0, _⟩ => rfl | ⟨1, _⟩ => rfl)
  have hE : (win0_6.blk t).view.emb j
      = (ix2 (⟨560 * (t.val - 18) + (j (0 : Fin 2)).val, hr⟩ : Fin 10000) (⟨(j (1 : Fin 2)).val, hq128⟩ : Fin 128) : S10000x128.Idx) :=
    funext fun a => Fin.ext (by match a with | ⟨0, _⟩ => exact q0 | ⟨1, _⟩ => exact q1)
  rw [hX, hE]
  exact h _ _ hr

/-! ## Cutting what was filled -/

/-- The part of a filled block of `A` that the fetch moves is what was fetched. -/
theorem cut0_fill (t : Fin cfg0.N) (d : S560x10000.Idx → Elt F .f32)
    (g : (win0_0.xblock (grid0.coords t)).Idx → Elt F .f32) :
    win0_0.cut (grid0.coords t) (win0_0.fill (grid0.coords t) d g) = g :=
  win0_0.cut_fill _ _ _

/-- The part of a filled block of the result that the transfer moves is what it was filled with. -/
theorem cut6_fill (t : Fin cfg0.N) (d : S560x128.Idx → Elt F .f32)
    (g : (win0_6.xblock (grid0.coords t)).Idx → Elt F .f32) :
    win0_6.cut (grid0.coords t) (win0_6.fill (grid0.coords t) d g) = g :=
  win0_6.cut_fill _ _ _

end Cert.Gcn.Rows

end
-- ==== Proof.ValueBody.lean ====
/-
  The idealized kernel's run with the contents of its buffers named, and what the result array holds after it.

  The proof data: each input's staging buffer holds its block (the row block of A on the rows inside the array — the
  last of the eighteen blocks overhangs it by 80 rows, of which nothing is claimed); the two scratch buffers hold,
  after point n, the first layer and the rows of the second layer stored so far; the result's staging buffer, at a point
  of the second phase, holds on its rows inside the array that block of A·y2. The body obligation is the three runs of
  the body by the point's place in the grid; the result array is then read off the eighteen write-backs, whose blocks
  cover it.
-/
import proofs.«112791_g36962488549418_cont_sun_m_245_12_alg».proof.Proof.ValRun
import proofs.«112791_g36962488549418_cont_sun_m_245_12_alg».proof.Proof.ValueData
import proofs.«112791_g36962488549418_cont_sun_m_245_12_alg».proof.Proof.Blocks
import proofs.«112791_g36962488549418_cont_sun_m_245_12_alg».proof.Proof.WholeBlocks
import proofs.«112791_g36962488549418_cont_sun_m_245_12_alg».proof.Proof.Rows

set_option maxRecDepth 16384

noncomputable section

namespace Cert.KernelIdeal.Val

open Cert.KernelIdeal Cert.KernelIdeal.Gen Cert.KernelIdeal.Body Cert.KernelIdeal.ValRun
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Gcn

local notation "𝕄" => MT nD τ sig Unit (Elt Ideal) ℕ (UR sig nD τ) ℕ

variable (m : (ℓ : Loc nD τ sig) → Buf (Elt Ideal) ℓ) (ρ : Dev nD → PrngReg)

/-! ## The grid: which conditionals a point takes, where the result's window rests

Point t of the 36 is (p, k) = (t / 18, t % 18). The first conditional is taken at t = 0 only, the second in the first
phase (t < 18), the third in the second (18 ≤ t). The result's window is idle, and not written back, in the first
phase. All decided over the grid. -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val < 18 :=
  (by decide +kernel : ∀ t : Fin grid0.N, k0_cond2 (grid0.coords t) = 1#1 ↔ t.val < 18)
theorem hcond3 : ∀ t : Fin cfg0.N, k0_cond3 (grid0.coords t) = 1#1 ↔ 18 ≤ t.val :=
  (by decide +kernel : ∀ t : Fin grid0.N, k0_cond3 (grid0.coords t) = 1#1 ↔ 18 ≤ t.val)
theorem hcoord1 : ∀ t : Fin cfg0.N, (grid0.coords t 1).val = t.val % 18 :=
  (by decide +kernel : ∀ t : Fin grid0.N, (grid0.coords t 1).val = t.val % 18)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6 : ∀ t : Fin cfg0.N, cfg0.idle 6 (grid0.coords t) = decide (t.val < 18) := by decide +kernel
theorem flush6 : ∀ t : Fin cfg0.N, (cfg0.win 6).flush t = decide (18 ≤ t.val) := by decide +kernel

/-! ## The invariant between points and the proof data -/

/-- Before the first point the scratch buffers hold anything; after point n they hold what Inv n says. -/
def PhiV (c : Dev nD) : ℕ → sProp 𝕄
  | 0 => Pipeline.ΦA spec0 c
  | n + 1 => iprop(∃ (d0 : Vec Ideal S10000x128 .bf16) (d1 : Vec Ideal S10080x128 .bf16), ⌜Inv m c n d0 d1⌝
      ∗ owns (c : Thread nD τ) sc0 fullShare d0 ∗ owns (c : Thread nD τ) sc1 fullShare d1 ∗ (∃ r, prngReg c r))

/-- The proof data with the contents named: the inputs' buffers at their blocks — the block of A filled out with
    zeros past the array's end, where nothing is claimed —; the result's buffer, at a point that writes it back,
    at the block of the result array A·y2 it covers, likewise filled out. -/
def datsV (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) (fun _ => (0 : EReal)) ((win0_6.blk t).view.read (Elt Ideal) (Gc m c))
  Φ t := PhiV m c t.val
  q _ := fullShare
  owed _ := 0

theorem AV_eq (c : Dev nD) (w : Fin cfg0.W) : (datsV m 0 c).A w = V m c (Pipeline.arrRef spec0 w) := by
  dsimp only [datsV]

theorem afterV0 (c : Dev nD) (t : Fin cfg0.N) : (datsV m 0 c).after 0 t = win0_0.fill (grid0.coords t) (fun _ => (0 : EReal)) (iblk m c 0 t) := by dsimp only [datsV]
theorem afterV1 (c : Dev nD) (t : Fin cfg0.N) : (datsV m 0 c).after 1 t = iblk m c 1 t := by dsimp only [datsV]
theorem afterV2 (c : Dev nD) (t : Fin cfg0.N) : (datsV m 0 c).after 2 t = iblk m c 2 t := by dsimp only [datsV]
theorem afterV3 (c : Dev nD) (t : Fin cfg0.N) : (datsV m 0 c).after 3 t = iblk m c 3 t := by dsimp only [datsV]
theorem afterV4 (c : Dev nD) (t : Fin cfg0.N) : (datsV m 0 c).after 4 t = iblk m c 4 t := by dsimp only [datsV]
theorem afterV5 (c : Dev nD) (t : Fin cfg0.N) : (datsV m 0 c).after 5 t = iblk m c 5 t := by dsimp only [datsV]
theorem afterV6 (c : Dev nD) (t : Fin cfg0.N) : (datsV m 0 c).after 6 t
    = win0_6.fill (grid0.coords t) (fun _ => (0 : EReal)) ((win0_6.blk t).view.read (Elt Ideal) (Gc m c)) := by dsimp only [datsV]

/-- The block of A is fetched at every point: its buffer holds the block on the rows inside the array. -/
theorem beforeV0 (c : Dev nD) (t : Fin cfg0.N) (d) :
    (datsV m 0 c).before 0 t d = win0_0.fill (grid0.coords t) d (iblk m c 0 t) := by
  unfold Dat.before; rw [if_pos (fetch0_0 t)]; rfl
/-- The five whole-array inputs are found at their arrays at every point, fetched there or not. -/
theorem beforeV1 (c : Dev nD) (t : Fin cfg0.N) (d) : (datsV m 0 c).before 1 t d = iblk m c 1 t :=
  before0_1_of m (datsV m 0 c) (AV_eq m c 1) (afterV1 m c) t d
theorem beforeV2 (c : Dev nD) (t : Fin cfg0.N) (d) : (datsV m 0 c).before 2 t d = iblk m c 2 t :=
  before0_2_of m (datsV m 0 c) (AV_eq m c 2) (afterV2 m c) t d
theorem beforeV3 (c : Dev nD) (t : Fin cfg0.N) (d) : (datsV m 0 c).before 3 t d = iblk m c 3 t :=
  before0_3_of m (datsV m 0 c) (AV_eq m c 3) (afterV3 m c) t d
theorem beforeV4 (c : Dev nD) (t : Fin cfg0.N) (d) : (datsV m 0 c).before 4 t d = iblk m c 4 t :=
  before0_4_of m (datsV m 0 c) (AV_eq m c 4) (afterV4 m c) t d
theorem beforeV5 (c : Dev nD) (t : Fin cfg0.N) (d) : (datsV m 0 c).before 5 t d = iblk m c 5 t :=
  before0_5_of m (datsV m 0 c) (AV_eq m c 5) (afterV5 m c) t d

/-! ## What the obligation asks of each window's buffer after the body -/

theorem leavesV0 (c : Dev nD) (t : Fin cfg0.N) : ((datsV m 0 c).leaves 0 t : sProp 𝕄)
    = iprop(∃ d, owns (c : Thread nD τ) (ms0_0 t) fullShare (win0_0.fill (grid0.coords t) d (win0_0.cut (grid0.coords t) ((datsV m 0 c).after 0 t)))) := by
  unfold Dat.leaves; rw [live0 t]; rfl
theorem leavesV1 (c : Dev nD) (t : Fin cfg0.N) : ((datsV m 0 c).leaves 1 t : sProp 𝕄) = owns (c : Thread nD τ) (ms0_1 t) fullShare ((datsV m 0 c).after 1 t) := by
  unfold Dat.leaves; rw [live1 t]
theorem leavesV2 (c : Dev nD) (t : Fin cfg0.N) : ((datsV m 0 c).leaves 2 t : sProp 𝕄) = owns (c : Thread nD τ) (ms0_2 t) fullShare ((datsV m 0 c).after 2 t) := by
  unfold Dat.leaves; rw [live2 t]
theorem leavesV3 (c : Dev nD) (t : Fin cfg0.N) : ((datsV m 0 c).leaves 3 t : sProp 𝕄) = owns (c : Thread nD τ) (ms0_3 t) fullShare ((datsV m 0 c).after 3 t) := by
  unfold Dat.leaves; rw [live3 t]
theorem leavesV4 (c : Dev nD) (t : Fin cfg0.N) : ((datsV m 0 c).leaves 4 t : sProp 𝕄) = owns (c : Thread nD τ) (ms0_4 t) fullShare ((datsV m 0 c).after 4 t) := by
  unfold Dat.leaves; rw [live4 t]
theorem leavesV5 (c : Dev nD) (t : Fin cfg0.N) : ((datsV m 0 c).leaves 5 t : sProp 𝕄) = owns (c : Thread nD τ) (ms0_5 t) fullShare ((datsV m 0 c).after 5 t) := by
  unfold Dat.leaves; rw [live5 t]
/-- In the first phase the result's window rests: its buffer is handed back as it was found. -/
theorem leavesV6_rest (c : Dev nD) (t : Fin cfg0.N) (ht : t.val < 18) : ((datsV m 0 c).leaves 6 t : sProp 𝕄)
    = iprop(∃ d, owns (c : Thread nD τ) (ms0_6 t) fullShare ((datsV m 0 c).before 6 t d)) := by
  unfold Dat.leaves; rw [idle6 t, flush6 t, decide_eq_true ht, decide_eq_false (by omega)]
/-- In the second phase it is asked on the rows inside the array only. -/
theorem leavesV6_live (c : Dev nD) (t : Fin cfg0.N) (ht : 18 ≤ t.val) : ((datsV m 0 c).leaves 6 t : sProp 𝕄)
    = iprop(∃ d, owns (c : Thread nD τ) (ms0_6 t) fullShare (win0_6.fill (grid0.coords t) d (win0_6.cut (grid0.coords t) ((datsV m 0 c).after 6 t)))) := by
  unfold Dat.leaves; rw [idle6 t, decide_eq_false (by omega)]; rfl

theorem PhiV_pos (c : Dev nD) (n : ℕ) (hn : n ≠ 0) : PhiV m c n
    = iprop(∃ (d0 : Vec Ideal S10000x128 .bf16) (d1 : Vec Ideal S10080x128 .bf16), ⌜Inv m c (n - 1) d0 d1⌝
      ∗ owns (c : Thread nD τ) sc0 fullShare d0 ∗ owns (c : Thread nD τ) sc1 fullShare d1 ∗ (∃ r, prngReg c r)) := by
  cases n with
  | zero => exact absurd rfl hn
  | succ n => rfl

/-! ## The body obligation at a generic point -/

def bodyPreV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d)))

def bodyPostV (c : Dev nD) (t : Fin cfg0.N) : sProp 𝕄 :=
  iprop((datsV m 0 c).Φ t.succ ∗ (datsV m 0 c).owesAt () t.succ
    ∗ (datsV m 0 c).leaves 0 t ∗ (datsV m 0 c).leaves 1 t ∗ (datsV m 0 c).leaves 2 t ∗ (datsV m 0 c).leaves 3 t
    ∗ (datsV m 0 c).leaves 4 t ∗ (datsV m 0 c).leaves 5 t ∗ (datsV m 0 c).leaves 6 t)

/-- The first 10000 rows of the second scratch buffer, read at an index. -/
theorem topRows_apply (d1 : Vec Ideal S10080x128 .bf16) (p : Fin 10000) (q : Fin 128) :
    topRows d1 (ix2 p q) = d1 (ix2 ⟨p.val, by omega⟩ q) := by
  show d1 _ = d1 _
  congr 1
  funext a
  apply Fin.ext
  match a with
  | ⟨0, _⟩ => show 0 + 1 * p.val = p.val; omega
  | ⟨1, _⟩ => show 0 + 1 * q.val = q.val; omega

/-- The staged block of A at a point, on its rows inside the array, is the block of A whose first row is
    560·(t mod 18), whatever fills the buffer's tail. -/
theorem a_rows (c : Dev nD) (t : Fin cfg0.N) (kb : ℕ) (hk : t.val % 18 = kb) (e0 : S560x10000.Idx → EReal)
    (r : Fin 560) (k : Fin 10000) (hr : 560 * kb + r.val < 10000) :
    win0_0.fill (grid0.coords t) e0 (iblk m c 0 t) (ix2 r k) = aM m c (ix2 ⟨560 * kb + r.val, hr⟩ k) := by
  subst hk
  exact Rows.a_row m c t e0 r k hr

set_option maxHeartbeats 4000000 in
/-- A point of the second phase: the third conditional alone. The invariant is read (all rows of the second layer
    are in the scratch) and kept; the result's buffer ends, on its rows inside the array, at the block of A·y2. -/
theorem sound_C (c : Dev nD) (t : Fin cfg0.N) (ht : 18 ≤ t.val) :
    bodyPreV m c t ⊢ wp frame (wpE (defs₀ (F := Ideal)) Variants.none c none) Set.univ (bodyAt0 t) (fun _ => bodyPostV m c t) := by
  have hN : t.val < 36 := lt_of_lt_of_eq t.isLt N_0
  have h1 : ¬cond1 (grid0.coords t) := fun h => by have := (hcond1 t).mp h; omega
  have h2 : ¬k0_cond2 (grid0.coords t) = 1#1 := fun h => by have := (hcond2 t).mp h; omega
  have h3 : k0_cond3 (grid0.coords t) = 1#1 := (hcond3 t).mpr ht
  unfold bodyPreV bodyPostV bodyAt0
  simp only [beforeV0, beforeV1, beforeV2, beforeV3, beforeV4, beforeV5]
  rw [leavesV0, leavesV1, leavesV2, leavesV3, leavesV4, leavesV5, leavesV6_live m c t ht,
    afterV0, afterV1, afterV2, afterV3, afterV4, afterV5, afterV6]
  rw [show (datsV m 0 c).owesAt () t.succ = (datsV m 0 c).owesAt () t.castSucc from rfl,
    show (datsV m 0 c).Φ t.castSucc = PhiV m c t.val from rfl, PhiV_pos m c t.val (by omega),
    show (datsV m 0 c).Φ t.succ = iprop(∃ (d0 : Vec Ideal S10000x128 .bf16) (d1 : Vec Ideal S10080x128 .bf16), ⌜Inv m c t.val d0 d1⌝
      ∗ owns (c : Thread nD τ) sc0 fullShare d0 ∗ owns (c : Thread nD τ) sc1 fullShare d1 ∗ (∃ r, prngReg c r)) from rfl]
  iintro ⟨⟨%d0, %d1, %hI, HS0, HS1, Hg⟩, Ho, ⟨%e0, H0⟩, ⟨%e1, H1⟩, ⟨%e2, H2⟩, ⟨%e3, H3⟩, ⟨%e4, H4⟩, ⟨%e5, H5⟩, ⟨%e6, H6⟩⟩
  have hI' : Inv m c 17 d0 d1 := Inv.mono m c (by omega) hI
  have hrows : ∀ (r : Fin 560) (q : Fin 128) (hr : 560 * (t.val - 18) + r.val < 10000),
      k0_pay3 (F := Ideal) (win0_0.fill (grid0.coords t) e0 (iblk m c 0 t)) (topRows d1) (ix2 r q)
        = Gc m c (ix2 ⟨560 * (t.val - 18) + r.val, hr⟩ q) := fun r q hr =>
    out_rows m c (t.val - 18) (by omega) d0 d1 hI' _ (topRows d1) (topRows_apply d1)
      (fun r k hr => a_rows m c t (t.val - 18) (by omega) e0 r k hr) r q hr
  iapply (runV_C (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) h1 h2 h3 (win0_0.fill (grid0.coords t) e0 (iblk m c 0 t)) d1 Set.univ _)
  isplitl [H0]; · iexact H0
  isplitl [H6]; · iexists _; iexact H6
  isplitl [HS1]; · iexact HS1
  iintro ⟨H0, H6, HS1⟩
  isplitl [HS0 HS1 Hg]
  · iexists d0, d1; isplitr; · ipureintro; exact Inv.mono m c (by omega) hI
    isplitl [HS0]; · iexact HS0
    isplitl [HS1]; · iexact HS1
    iexact Hg
  isplitl [Ho]; · iexact Ho
  isplitl [H0]
  · iexists e0; rw [win0_0.cut_fill]; iexact H0
  isplitl [H1]; · iexact H1
  isplitl [H2]; · iexact H2
  isplitl [H3]; · iexact H3
  isplitl [H4]; · iexact H4
  isplitl [H5]; · iexact H5
  · iexists (k0_pay3 (F := Ideal) (win0_0.fill (grid0.coords t) e0 (iblk m c 0 t)) (topRows d1))
    have hcut := Rows.cut6_eq (F := Ideal) t ht
      (k0_pay3 (F := Ideal) (win0_0.fill (grid0.coords t) e0 (iblk m c 0 t)) (topRows d1)) (Gc m c) hrows
    rw [win0_6.cut_fill, ← hcut, win0_6.fill_cut]
    iexact H6

set_option maxHeartbeats 4000000 in
/-- A later point of the first phase: the second conditional alone. One more block of the second layer goes into
    its rows of the second scratch buffer; the result's window rests. -/
theorem sound_B (c : Dev nD) (t : Fin cfg0.N) (h0 : t.val ≠ 0) (ht : t.val < 18) :
    bodyPreV m c t ⊢ wp frame (wpE (defs₀ (F := Ideal)) Variants.none c none) Set.univ (bodyAt0 t) (fun _ => bodyPostV m c t) := by
  have h1 : ¬cond1 (grid0.coords t) := fun h => h0 ((hcond1 t).mp h)
  have h2 : k0_cond2 (grid0.coords t) = 1#1 := (hcond2 t).mpr ht
  have h3 : ¬k0_cond3 (grid0.coords t) = 1#1 := fun h => by have := (hcond3 t).mp h; omega
  have hk : (grid0.coords t 1).val = t.val := by rw [hcoord1 t]; exact Nat.mod_eq_of_lt ht
  unfold bodyPreV bodyPostV bodyAt0
  simp only [beforeV0, beforeV1, beforeV2, beforeV3, beforeV4, beforeV5]
  rw [leavesV0, leavesV1, leavesV2, leavesV3, leavesV4, leavesV5, leavesV6_rest m c t ht,
    afterV0, afterV1, afterV2, afterV3, afterV4, afterV5]
  rw [show (datsV m 0 c).owesAt () t.succ = (datsV m 0 c).owesAt () t.castSucc from rfl,
    show (datsV m 0 c).Φ t.castSucc = PhiV m c t.val from rfl, PhiV_pos m c t.val h0,
    show (datsV m 0 c).Φ t.succ = iprop(∃ (d0 : Vec Ideal S10000x128 .bf16) (d1 : Vec Ideal S10080x128 .bf16), ⌜Inv m c t.val d0 d1⌝
      ∗ owns (c : Thread nD τ) sc0 fullShare d0 ∗ owns (c : Thread nD τ) sc1 fullShare d1 ∗ (∃ r, prngReg c r)) from rfl]
  iintro ⟨⟨%d0, %d1, %hI, HS0, HS1, Hg⟩, Ho, ⟨%e0, H0⟩, ⟨%e1, H1⟩, ⟨%e2, H2⟩, ⟨%e3, H3⟩, ⟨%e4, H4⟩, ⟨%e5, H5⟩, H6⟩
  iapply (runV_B (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) h1 h2 h3 (win0_0.fill (grid0.coords t) e0 (iblk m c 0 t))
    (iblk m c 4 t) (iblk m c 5 t) d0 d1 Set.univ _)
  isplitl [H0]; · iexact H0
  isplitl [H4]; · iexact H4
  isplitl [H5]; · iexact H5
  isplitl [HS0]; · iexact HS0
  isplitl [HS1]; · iexact HS1
  iintro ⟨H0, H4, H5, HS0, ⟨%y', %hs, HS1⟩⟩
  isplitl [HS0 HS1 Hg]
  · iexists d0, y'; isplitr
    · ipureintro
      exact Inv.step m c t.val ht d0 d1 y' _ (iblk m c 4 t) (iblk m c 5 t) hI.1 (fun _ => hI)
        (fun r k hr => a_rows m c t t.val (Nat.mod_eq_of_lt ht) e0 r k hr)
        (WholeBlocks.blk4_arg m c t) (fun q => WholeBlocks.blk5_apply m c t q)
        (fun j x hx0 hx1 => hs.1 j x (by rw [hk]; exact hx0) hx1)
        (fun j hj => hs.2 j (by rw [hk]; exact hj))
    isplitl [HS0]; · iexact HS0
    isplitl [HS1]; · iexact HS1
    iexact Hg
  isplitl [Ho]; · iexact Ho
  isplitl [H0]
  · iexists e0; rw [win0_0.cut_fill]; iexact H0
  isplitl [H1]; · iexact H1
  isplitl [H2]; · iexact H2
  isplitl [H3]; · iexact H3
  isplitl [H4]; · iexact H4
  isplitl [H5]; · iexact H5
  iexact H6

set_option maxHeartbeats 4000000 in
/-- The first point: both the first and the second conditional. The scratch buffers, at anything before, end
    holding the first layer and the first block of the second. -/
theorem sound_A (c : Dev nD) (t : Fin cfg0.N) (h0 : t.val = 0) :
    bodyPreV m c t ⊢ wp frame (wpE (defs₀ (F := Ideal)) Variants.none c none) Set.univ (bodyAt0 t) (fun _ => bodyPostV m c t) := by
  have ht : t.val < 18 := by omega
  have h1 : cond1 (grid0.coords t) := (hcond1 t).mpr h0
  have h2 : k0_cond2 (grid0.coords t) = 1#1 := (hcond2 t).mpr ht
  have h3 : ¬k0_cond3 (grid0.coords t) = 1#1 := fun h => by have := (hcond3 t).mp h; omega
  have hk : (grid0.coords t 1).val = t.val := by rw [hcoord1 t]; exact Nat.mod_eq_of_lt ht
  unfold bodyPreV bodyPostV bodyAt0
  simp only [beforeV0, beforeV1, beforeV2, beforeV3, beforeV4, beforeV5]
  rw [leavesV0, leavesV1, leavesV2, leavesV3, leavesV4, leavesV5, leavesV6_rest m c t ht,
    afterV0, afterV1, afterV2, afterV3, afterV4, afterV5]
  rw [show (datsV m 0 c).owesAt () t.succ = (datsV m 0 c).owesAt () t.castSucc from rfl,
    show (datsV m 0 c).Φ t.castSucc = Pipeline.ΦA spec0 c from (by show PhiV m c t.val = _; rw [h0]; rfl), PhiA0_eq,
    show (datsV m 0 c).Φ t.succ = iprop(∃ (d0 : Vec Ideal S10000x128 .bf16) (d1 : Vec Ideal S10080x128 .bf16), ⌜Inv m c t.val d0 d1⌝
      ∗ owns (c : Thread nD τ) sc0 fullShare d0 ∗ owns (c : Thread nD τ) sc1 fullShare d1 ∗ (∃ r, prngReg c r)) from rfl]
  iintro ⟨⟨⟨⟨%ds0, HS0⟩, ⟨%ds1, HS1⟩⟩, Hg⟩, Ho, ⟨%e0, H0⟩, ⟨%e1, H1⟩, ⟨%e2, H2⟩, ⟨%e3, H3⟩, ⟨%e4, H4⟩, ⟨%e5, H5⟩, H6⟩
  have hd0 : k0_pay1 (F := Ideal) (iblk m c 1 t) (iblk m c 2 t) (iblk m c 3 t) = Y1 m c := by
    rw [Bridge.y1_of_pay1 (iblk m c 1 t) (iblk m c 2 t) (iblk m c 3 t) (b1M m c) (fun q => WholeBlocks.blk3_apply m c t q),
      WholeBlocks.blk1_arg m c t, WholeBlocks.blk2_arg m c t]
    rfl
  iapply (runV_A (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) h1 h2 h3 (win0_0.fill (grid0.coords t) e0 (iblk m c 0 t))
    (iblk m c 1 t) (iblk m c 2 t) (iblk m c 3 t) (iblk m c 4 t) (iblk m c 5 t) ds1 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexact HS1
  iintro ⟨H0, H1, H2, H3, H4, H5, HS0, ⟨%y', %hs, HS1⟩⟩
  isplitl [HS0 HS1 Hg]
  · iexists _, y'; isplitr
    · ipureintro
      exact Inv.step m c t.val ht _ ds1 y' _ (iblk m c 4 t) (iblk m c 5 t) hd0 (fun h => absurd h0 h)
        (fun r k hr => a_rows m c t t.val (Nat.mod_eq_of_lt ht) e0 r k hr)
        (WholeBlocks.blk4_arg m c t) (fun q => WholeBlocks.blk5_apply m c t q)
        (fun j x hx0 hx1 => hs.1 j x (by rw [hk]; exact hx0) hx1)
        (fun j hj => hs.2 j (by rw [hk]; exact hj))
    isplitl [HS0]; · iexact HS0
    isplitl [HS1]; · iexact HS1
    iexact Hg
  isplitl [Ho]; · iexact Ho
  isplitl [H0]
  · iexists e0; rw [win0_0.cut_fill]; iexact H0
  isplitl [H1]; · iexact H1
  isplitl [H2]; · iexact H2
  isplitl [H3]; · iexact H3
  isplitl [H4]; · iexact H4
  isplitl [H5]; · iexact H5
  iexact H6

/-- The body at any point: the three cases the grid meets. -/
theorem sound_bodyV (c : Dev nD) (t : Fin cfg0.N) :
    bodyPreV m c t ⊢ wp frame (wpE (defs₀ (F := Ideal)) Variants.none c none) Set.univ (bodyAt0 t) (fun _ => bodyPostV m c t) := by
  by_cases h0 : t.val = 0
  · exact sound_A m c t h0
  · by_cases ht : t.val < 18
    · exact sound_B m c t h0 ht
    · exact sound_C m c t (by omega)

/-- The library's body obligation, in the form that asks a clipped window's buffer on its rows inside the array only. -/
theorem body_obligationV (c : Dev nD) : BodyObligationLoose (datsV m 0 c) (defs₀ (F := Ideal)) Variants.none () Set.univ := fun t => by
  rw [bigSep_W0, bigSep_W0]
  exact sound_bodyV m c t

/-- Before the first point the invariant is the launch's own. -/
theorem hinV (c : Dev nD) : Pipeline.ΦA spec0 c ⊢ (datsV m 0 c).Φ 0 := by
  rw [show (datsV m 0 c).Φ 0 = Pipeline.ΦA spec0 c from rfl]
  try exact Idealize.SL.BI.Entails.refl _

/-- After the last point the scratch buffers' contents are forgotten. -/
theorem houtV (c : Dev nD) : (datsV m 0 c).Φ (Fin.last cfg0.N) ⊢ Pipeline.ΦA spec0 c := by
  rw [show (datsV m 0 c).Φ (Fin.last cfg0.N) = PhiV m c 36 from rfl, PhiV_pos m c 36 (by omega), PhiA0_eq]
  iintro ⟨%d0, %d1, -, HS0, HS1, Hg⟩
  isplitl [HS0 HS1]
  · isplitl [HS0]
    · iexists _; iexact HS0
    iexists _; iexact HS1
  iexact Hg

/-! ## The run, and the result array in closed form -/

set_option backward.isDefEq.respectTransparency.types false in
/-- Every weakly fair execution of the idealized kernel terminates, and every final state has each array of the
    pipeline at what the write-backs of the proof data leave in it. -/
theorem run_mainV : θ_run defs (onTc (τ := τ) (main (F := Ideal))) (s₀ m ρ) (Pipeline.FramePost cfgs (datsV m) 0 (V m)) :=
  Pipeline.θ_run_frame_track cfgs (datsV m) (0 : Fin 1) launch0 defs₀ Variants.none m ρ main
    (hbody := fun c => body_obligationV m c) (hshare := fun c => (datsV m 0 c).share_full fun _ => rfl)
    (howed := fun _ _ => rfl) (V := V m) (hmain := hmain m Variants.none) (hA := AV_eq m) (hin := hinV m) (hout := houtV m)

/-- The result array after the run is A·y2: every point of the second phase writes back, onto the rows of its block
    that lie inside the array, those rows of A·y2, and the eighteen blocks cover the array. -/
theorem finalV (c : Dev nD) : (datsV m 0 c).arrAt 6 cfg0.N = Gc m c :=
  (datsV m 0 c).arrAt_eq_of_cover 6 (Gc m c) (fun t _ => by
    show (cfg0.win 6).cut (grid0.coords t) ((datsV m 0 c).after 6 t) = _
    rw [afterV6]
    exact win0_6.cut_fill _ _ _) Blocks.cover6

/-- The idealized kernel's run with its result named: the result array ends at A·y2 of the arguments, the six
    arguments as they were. -/
theorem run_value : θ_run defs (onTc (τ := τ) (main (F := Ideal))) ⟨m, fun _ => 0, ρ⟩ (fun r => ∀ c : Dev nD,
      r.2.mem ((c.tc : Thread nD τ).loc main_v0) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (finalV m c),
      ((h c).1 1).trans (((datsV m 0 c).arrAt_in 1 rfl _).trans ((AV_eq m c 1).trans (V_main_arg0 m c))),
      ((h c).1 0).trans (((datsV m 0 c).arrAt_in 0 rfl _).trans ((AV_eq m c 0).trans (V_main_arg1 m c))),
      ((h c).1 2).trans (((datsV m 0 c).arrAt_in 2 rfl _).trans ((AV_eq m c 2).trans (V_main_arg2 m c))),
      ((h c).2 main_arg3 (Pipeline.mem_restRefs_of main_arg3 (by decide) (by decide))).trans (V_main_arg3 m c),
      ((h c).1 4).trans (((datsV m 0 c).arrAt_in 4 rfl _).trans ((AV_eq m c 4).trans (V_main_arg4 m c))),
      ((h c).2 main_arg5 (Pipeline.mem_restRefs_of main_arg5 (by decide) (by decide))).trans (V_main_arg5 m c)⟩) (run_mainV m ρ)

end Cert.KernelIdeal.Val

end
-- ==== Proof.RefIsSpec.lean ====
/-
  The reference program computes the specification. Stage by stage, each value the reference writes is read
  at an index (the generated `val_main_vN_apply` lemmas: a product of matrices is the finite sum over the
  contracted coordinate, a broadcast reads its operand at the projected index, `add` and `maximum` act entry
  by entry), the operand indices are identified with the specification's `ix1` / `ix2` of the coordinates,
  and at the extended reals `add` is `+`, `maximum` is `max` and the zero word is `0`. The four stages
  compose to `G`.
-/
import proofs.«112791_g36962488549418_cont_sun_m_245_12_alg».proof.Proof.Spec
import proofs.«112791_g36962488549418_cont_sun_m_245_12_alg».proof.Proof.Gen.ReferenceIdeal.Read

noncomputable section

namespace Cert.Gcn.RefSpec

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx
open scoped BigOperators

/-! ## The operand indices of the reference's stages are the specification's -/

theorem lidx_v0 (i : S10000x128.Idx) (k : Fin 128) : lidx_main_v0 i k = ix2 (i 0) k :=
  funext fun a => Fin.ext (by match a with | ⟨0, _⟩ => rfl | ⟨1, _⟩ => rfl)
theorem ridx_v0 (i : S10000x128.Idx) (k : Fin 128) : ridx_main_v0 i k = ix2 k (i 1) :=
  funext fun a => Fin.ext (by match a with | ⟨0, _⟩ => rfl | ⟨1, _⟩ => rfl)
theorem lidx_v4 (i : S10000x128.Idx) (k : Fin 10000) : lidx_main_v4 i k = ix2 (i 0) k :=
  funext fun a => Fin.ext (by match a with | ⟨0, _⟩ => rfl | ⟨1, _⟩ => rfl)
theorem ridx_v4 (i : S10000x128.Idx) (k : Fin 10000) : ridx_main_v4 i k = ix2 k (i 1) :=
  funext fun a => Fin.ext (by match a with | ⟨0, _⟩ => rfl | ⟨1, _⟩ => rfl)
theorem lidx_v6 (i : S10000x128.Idx) (k : Fin 128) : lidx_main_v6 i k = ix2 (i 0) k :=
  funext fun a => Fin.ext (by match a with | ⟨0, _⟩ => rfl | ⟨1, _⟩ => rfl)
theorem ridx_v6 (i : S10000x128.Idx) (k : Fin 128) : ridx_main_v6 i k = ix2 k (i 1) :=
  funext fun a => Fin.ext (by match a with | ⟨0, _⟩ => rfl | ⟨1, _⟩ => rfl)
theorem lidx_v10 (i : S10000x128.Idx) (k : Fin 10000) : lidx_main_v10 i k = ix2 (i 0) k :=
  funext fun a => Fin.ext (by match a with | ⟨0, _⟩ => rfl | ⟨1, _⟩ => rfl)
theorem ridx_v10 (i : S10000x128.Idx) (k : Fin 10000) : ridx_main_v10 i k = ix2 k (i 1) :=
  funext fun a => Fin.ext (by match a with | ⟨0, _⟩ => rfl | ⟨1, _⟩ => rfl)
/-- A bias row broadcast to every row is read at the column coordinate. -/
theorem idx_v1_v2 (i : S10000x128.Idx) : idx_main_v1 (idx_main_v2 i) = ix1 (i 1) :=
  funext fun a => Fin.ext (by match a with | ⟨0, _⟩ => rfl)
theorem idx_v7_v8 (i : S10000x128.Idx) : idx_main_v7 (idx_main_v8 i) = ix1 (i 1) :=
  funext fun a => Fin.ext (by match a with | ⟨0, _⟩ => rfl)

/-! ## The four stages -/

/-- `x · w1 + b1`. -/
theorem v3_eq (x0 : (⟨S10000x128, .f32⟩ : BufTy).Contents (Elt Ideal)) (x2 : (⟨S128x128, .f32⟩ : BufTy).Contents (Elt Ideal))
    (x3 : (⟨S128, .f32⟩ : BufTy).Contents (Elt Ideal)) :
    val_main_v3 (F := Ideal) x0 x2 x3 = Cert.Gcn.Spec.y1 x0 x2 x3 := by
  funext i
  rw [val_main_v3_apply, val_main_v0_apply, val_main_v2_apply, val_main_v1_apply, idx_v1_v2]
  simp only [lidx_v0, ridx_v0, Ideal.addf_def]
  rfl

/-- `max (a · y) 0`. -/
theorem v5_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = Cert.Gcn.Spec.hid x1 (val_main_v3 (F := Ideal) x0 x2 x3) := by
  funext i
  rw [val_main_v5_apply, val_main_v4_apply, val_main_call0_v0_apply, val_main_call0_cst_apply]
  simp only [lidx_v4, ridx_v4, Ideal.maximumf_def, Ideal.ofBits_def, Ideal.ofBits_zero_f32]
  rfl

/-- `h · w2 + b2`. -/
theorem v9_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v9 (F := Ideal) x0 x1 x2 x3 x4 x5 = Cert.Gcn.Spec.y2 (val_main_v5 (F := Ideal) x0 x1 x2 x3) x4 x5 := by
  funext i
  rw [val_main_v9_apply, val_main_v6_apply, val_main_v8_apply, val_main_v7_apply, idx_v7_v8]
  simp only [lidx_v6, ridx_v6, Ideal.addf_def]
  rfl

/-- `a · y`. -/
theorem v10_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x2 x3 x4 x5 = Cert.Gcn.Spec.out x1 (val_main_v9 (F := Ideal) x0 x1 x2 x3 x4 x5) := by
  funext i
  rw [val_main_v10_apply]
  simp only [lidx_v10, ridx_v10]
  rfl

/-! ## The reference is the specification -/

/-- The reference's result, as a function of @main's arguments `x, a, w1, b1, w2, b2`, is `G`. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x2 x3 x4 x5 = Cert.Gcn.Spec.G x0 x1 x2 x3 x4 x5 := by
  rw [v10_eq, v9_eq, v5_eq, v3_eq]
  rfl

/-- The term the reference's run ends at, of any six argument arrays, is `G` of them. -/
theorem run_G (x0 : FVec Ideal S10000x128 .f32) (x1 : FVec Ideal S10000x10000 .f32) (x2 : FVec Ideal S128x128 .f32)
    (x3 : FVec Ideal S128 .f32) (x4 : FVec Ideal S128x128 .f32) (x5 : FVec Ideal S128 .f32) :
    Host.dotGeneral dot_S10000x10000_S10000x128_S10000x128_1_0_0_1_n_n none (x1) (addf (Host.dotGeneral dot_S10000x128_S128x128_S10000x128_1_0_0_1_n_n none (maximumf (Host.dotGeneral dot_S10000x10000_S10000x128_S10000x128_1_0_0_1_n_n none (x1) (addf (Host.dotGeneral dot_S10000x128_S128x128_S10000x128_1_0_0_1_n_n none (x0) (x2)) (broadcastInDim S10000x128 ![0, 1] bcast_S1x128_S10000x128_0_1 (broadcastInDim S1x128 ![1] bcast_S128_S1x128_1 (x3))))) (broadcastInDim S10000x128 ![] bcast_S_S10000x128 (constant (F := Ideal) S_ .f32 0x00000000#32))) (x4)) (broadcastInDim S10000x128 ![0, 1] bcast_S1x128_S10000x128_0_1 (broadcastInDim S1x128 ![1] bcast_S128_S1x128_1 (x5))))
      = Cert.Gcn.Spec.G x0 x1 x2 x3 x4 x5 :=
  (val_main_v10_eq (F := Ideal) x0 x1 x2 x3 x4 x5).trans (ref_eq x0 x1 x2 x3 x4 x5)

end Cert.Gcn.RefSpec

end
-- ==== Proof.Algebraic.lean ====
/-
  The two idealized programs compute one function of their arguments over the extended reals:
      out = A·(max(A·(x·W1 + b1), 0)·W2 + b2).
  The kernel reaches it in two phases over eighteen row blocks of A — the first layer once, the second layer block by
  block into a scratch buffer, then the result block by block from that scratch buffer — and the reference by whole-array
  products; the arrangement of sums and products is the same on both sides, row by row, so no law of the extended reals
  beyond reading a matrix product as a finite sum enters, and the finiteness of the inputs is never used.
-/
import proofs.«112791_g36962488549418_cont_sun_m_245_12_alg».proof.Defs
import proofs.«112791_g36962488549418_cont_sun_m_245_12_alg».proof.Proof.ValueBody
import proofs.«112791_g36962488549418_cont_sun_m_245_12_alg».proof.Proof.RefIsSpec
import proofs.«112791_g36962488549418_cont_sun_m_245_12_alg».proof.Proof.Gen.ReferenceIdeal.Run
import proofs.«112791_g36962488549418_cont_sun_m_245_12_alg».proof.Proof.Gen.ReferenceIdeal
import proofs.«112791_g36962488549418_cont_sun_m_245_12_alg».proof.Proof.Gen.KernelIdeal
import proofs.«112791_g36962488549418_cont_sun_m_245_12_alg».proof.Proof.Gen.Pre_finite_inputs

noncomputable section

namespace Cert.Gcn.Alg

open Idealize.ShloMosaic Idealize.SL.Sem

/-- From memories that agree on the six arguments, the idealized kernel's result array and the idealized reference's
    both end at A·y2 of those arguments, and both programs leave the arguments as they were. -/
theorem algebraic : Cert.algebraic_KernelIdeal_ReferenceIdeal := by
  intro m ρ m' ρ' _ hagree
  refine ⟨fun c => Cert.KernelIdeal.Val.Gc m c, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.Gcn.RefSpec.run_G _ _ _ _ _ _

end Cert.Gcn.Alg

end
-- ==== Proof.lean ====
/-
  The certificate of a two-layer dense graph convolution out = A·(max(A·(x·W1 + b1), 0)·W2 + b2): the kernel's and
  the reference's frames, the (empty) idealization conjunct, and the equality of the two idealized programs' results
  over the extended reals, assembled behind the witnesses of the programs' stated facts.
-/
import proofs.«112791_g36962488549418_cont_sun_m_245_12_alg».proof.Defs
import proofs.«112791_g36962488549418_cont_sun_m_245_12_alg».proof.Proof.Claims
import proofs.«112791_g36962488549418_cont_sun_m_245_12_alg».proof.Proof.Algebraic
import proofs.«112791_g36962488549418_cont_sun_m_245_12_alg».proof.Proof.Gen.Kernel
import proofs.«112791_g36962488549418_cont_sun_m_245_12_alg».proof.Proof.Gen.KernelIdeal
import proofs.«112791_g36962488549418_cont_sun_m_245_12_alg».proof.Proof.Gen.ReferenceIdeal
import proofs.«112791_g36962488549418_cont_sun_m_245_12_alg».proof.Proof.Gen.Pre_finite_inputs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Gcn.Claims.frame_kernel, Cert.Gcn.Claims.frame_kernelIdeal, Cert.Gcn.Claims.frame_referenceIdeal, Cert.Gcn.Claims.preserves,
  Cert.Gcn.Alg.algebraic⟩

end Cert.Proof

end
